-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S64x10000 : Shape := ⟨2, ![64, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S64x10000 : S_.BroadcastsInDim S64x10000 (![] : Fin 0 → Fin S64x10000.rank)
  reducesTo_S64x10000_S_d0_1 : S64x10000.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128x128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S64x10000 .f32) (main_arg2 : FVec F S10000x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S64x10000 .f32 := Host.absf main_arg1
  let main_cst_0 : FVec F S_ .f32 := constant S_ .f32 0x7F800000#32
  let main_v5 : FVec F S64x10000 .f32 := broadcastInDim S64x10000 ![] bcast_S_S64x10000 main_cst_0
  let main_v6 : IVec S64x10000 1 := cmpf .olt main_v4 main_v5
  let main_c_1 : IVec S_ 1 := constantI S_ 1 1#1
  let main_v7 : IVec S_ 1 := (fun x v => Host.reduce IntOp.andi x v reducesTo_S64x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x10000 : Shape := ⟨2, ![10000, 10000]⟩
abbrev S64x10000 : Shape := ⟨2, ![64, 10000]⟩
abbrev S10000x128 : Shape := ⟨2, ![10000, 128]⟩
abbrev S128x128 : Shape := ⟨2, ![128, 128]⟩
abbrev S128 : Shape := ⟨1, ![128]⟩
abbrev S64x128 : Shape := ⟨2, ![64, 128]⟩
abbrev S400x10000 : Shape := ⟨2, ![400, 10000]⟩
abbrev S400x128 : Shape := ⟨2, ![400, 128]⟩
abbrev S1x128 : Shape := ⟨2, ![1, 128]⟩
abbrev S400 : Shape := ⟨1, ![400]⟩
abbrev S400x1 : Shape := ⟨2, ![400, 1]⟩
abbrev S64x6400 : Shape := ⟨2, ![64, 6400]⟩
abbrev S6400x128 : Shape := ⟨2, ![6400, 128]⟩
abbrev S64x3600 : Shape := ⟨2, ![64, 3600]⟩
abbrev S3600x128 : Shape := ⟨2, ![3600, 128]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S10000x10000, .f32⟩
  | .hbm, ⟨1, _⟩ => ⟨S64x10000, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S64x128, .f32⟩
  | .local _ .vmem, ⟨0, _⟩ => ⟨S400x10000, .f32⟩
  | .local _ .vmem, ⟨1, _⟩ => ⟨S400x10000, .f32⟩
  | .local _ .vmem, ⟨2, _⟩ => ⟨S64x10000, .f32⟩
  | .local _ .vmem, ⟨3, _⟩ => ⟨S10000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S400x128, .f32⟩
  | .local _ .vmem, ⟨10, _⟩ => ⟨S400x128, .f32⟩
  | .local _ .vmem, ⟨11, _⟩ => ⟨S64x128, .f32⟩
  | .local _ .vmem, ⟨12, _⟩ => ⟨S10000x128, .f32⟩
  | .local _ .vmem, ⟨13, _⟩ => ⟨S10000x128, .f32⟩
  | .local _ .vmem, ⟨14, _⟩ => ⟨S64x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v19 : BitVec 32 := Scalar.muli arg0 c400_i32
  let v20 : Index := Scalar.indexCast v19
  let c0_12 : Index := 0#32
  ![v20.toNat, 0]
def k0_cond3 (i : grid0.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S64x10000_S64x6400_0_0 : ∀ a, (![0, 0] : Fin 2 → Nat) a + S64x6400.size a ≤ S64x10000.size a
  h_S64x6400 : 0 < S64x6400.numel
  inb_S10000x128_S6400x128_0_0 : ∀ a, (![0, 0] : Fin 2 → Nat) a + S6400x128.size a ≤ S10000x128.size a
  h_S6400x128 : 0 < S6400x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x10000_S64x3600_0_6400 : ∀ a, (![0, 6400] : Fin 2 → Nat) a + S64x3600.size a ≤ S64x10000.size a
  h_S64x3600 : 0 < S64x3600.numel
  inb_S10000x128_S3600x128_6400_0 : ∀ a, (![6400, 0] : Fin 2 → Nat) a + S3600x128.size a ≤ S10000x128.size a
  h_S3600x128 : 0 < S3600x128.numel
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S64x6400_S6400x128_S64x128_1_0_0_1_n_n_wf : DotDims.WF S64x6400 S6400x128 S64x128 [1] [0] [0] [1] [] []
  dot_S64x3600_S3600x128_S64x128_1_0_0_1_n_n_wf : DotDims.WF S64x3600 S3600x128 S64x128 [1] [0] [0] [1] [] []
  dot_S64x128_S128x128_S64x128_1_1_0_0_n_n_wf : DotDims.WF S64x128 S128x128 S64x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x10000.size a ≤ S64x10000.size a
  hwx0_1 : ∀ i : grid0.Coords, EltTy.bits .f32 = 32 ∨ (Rect.block (s := S64x10000) S64x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S64x6400_S6400x128_S64x128_1_0_0_1_n_n : DotDims S64x6400 S6400x128 S64x128 where
  lhsContracting := [1]
  rhsContracting := [0]
  lhsNonContracting := [0]
  rhsNonContracting := [1]
  lhsBatch := []
  rhsBatch := []
  wf := dot_S64x6400_S6400x128_S64x128_1_0_0_1_n_n_wf
def dot_S64x3600_S3600x128_S64x128_1_0_0_1_n_n : DotDims S64x3600 S3600x128 S64x128 where
  lhsContracting := [1]
  rhsContracting := [0]
  lhsNonContracting := [0]
  rhsNonContracting := [1]
  lhsBatch := []
  rhsBatch := []
  wf := dot_S64x3600_S3600x128_S64x128_1_0_0_1_n_n_wf
def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S64x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S10000x10000 : Shape := ⟨2, ![10000, 10000]⟩
abbrev S64x10000 : Shape := ⟨2, ![64, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S64x128 : Shape := ⟨2, ![64, 128]⟩
abbrev S64 : Shape := ⟨1, ![64]⟩
abbrev S64x1 : Shape := ⟨2, ![64, 1]⟩

abbrev nBuf : Space → Nat
  | .hbm => 50
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S64x10000, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x128, .f32⟩
  | .hbm, ⟨30, _⟩ => ⟨S10000x128, .f32⟩
  | .hbm, ⟨31, _⟩ => ⟨S64x128, .f32⟩
  | .hbm, ⟨32, _⟩ => ⟨S128x128, .f32⟩
  | .hbm, ⟨33, _⟩ => ⟨S64x128, .f32⟩
  | .hbm, ⟨34, _⟩ => ⟨S1x128, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x128, .f32⟩
  | .hbm, ⟨49, _⟩ => ⟨S64x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_cst : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S64x10000_S10000x128_S64x128_1_0_0_1_n_n_wf : DotDims.WF S64x10000 S10000x128 S64x128 [1] [0] [0] [1] [] []
  dot_S64x128_S128x128_S64x128_1_0_0_1_n_n_wf : DotDims.WF S64x128 S128x128 S64x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S64x10000_S10000x128_S64x128_1_0_0_1_n_n : DotDims S64x10000 S10000x128 S64x128 where
  lhsContracting := [1]
  rhsContracting := [0]
  lhsNonContracting := [0]
  rhsNonContracting := [1]
  lhsBatch := []
  rhsBatch := []
  wf := dot_S64x10000_S10000x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.Word.BodyShared.lean ====
/-
  What the runs of the kernel body share. The body branches three times on the grid coordinate: at the
  first point it fills the hidden-layer scratch, at point 16 it pools the rows finished so far, at the
  last point it adds the remaining rows' pooling and writes the graph embedding. Here: the three
  conditions in closed form over the 25 points; where the second output's window is idle (everywhere
  but the last point, which is also the only point that writes it back); names for the staging memrefs
  the pipeline passes at a point and for the three scratch memrefs; and the region's invariant opened
  into the three scratch buffers at some contents and the generator register.
-/
import proofs.«101997_g44092134261233_cont_8to1_c_785_18_alg».proof.Proof.Gen.Kernel.Frame
import proofs.«101997_g44092134261233_cont_8to1_c_785_18_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The first branch is taken: the grid coordinate is 0. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch is taken: the grid coordinate is 16. -/
abbrev condPool (i : grid0.Coords) : Prop := (Scalar.cmpi .ne (Scalar.extui (Scalar.cmpi .eq (BitVec.ofNat 32 (i 0).val) 16#32)) 0#32) = 1#1
theorem hcondPool : ∀ t : Fin cfg0.N, condPool (grid0.coords t) ↔ t.val = 16 :=
  (by decide +kernel : ∀ t : Fin grid0.N, condPool (grid0.coords t) ↔ t.val = 16)

/-- The third branch is taken: the grid coordinate is 24, the last. -/
abbrev condLast (i : grid0.Coords) : Prop := k0_cond3 i = 1#1
theorem hcondLast : ∀ t : Fin cfg0.N, condLast (grid0.coords t) ↔ t.val = 24 :=
  (by decide +kernel : ∀ t : Fin grid0.N, condLast (grid0.coords t) ↔ t.val = 24)

/-- The row offset of the tile the body stores into the mirror scratch at a point: 400 times the coordinate. -/
theorem off1_eq : ∀ t : Fin cfg0.N, k0_off1 (grid0.coords t) = ![400 * t.val, 0] :=
  (by decide +kernel : ∀ t : Fin grid0.N, k0_off1 (grid0.coords t) = ![400 * t.val, 0])

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
/-- Away from the last point the body stores nothing into the second output's window, -/
theorem idleAt9 : ∀ t : Fin cfg0.N, ¬condLast (grid0.coords t) → cfg0.idle 9 (grid0.coords t) = true := by decide +kernel
/-- and the pipeline does not write it back there; -/
theorem noFlush9 : ∀ t : Fin cfg0.N, ¬condLast (grid0.coords t) → (cfg0.win 9).flush t = false := by decide +kernel
/-- at the last point it is live. -/
theorem liveAt9 : ∀ t : Fin cfg0.N, condLast (grid0.coords t) → cfg0.idle 9 (grid0.coords t) = false := by decide +kernel

/-! ## The memrefs the body is called with -/

abbrev ms0 (t : Fin cfg0.N) : Memref sig .tc .vmem S400x10000 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S64x10000 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S128 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hms6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hms7 (t : Fin cfg0.N) : (ms7 t).IsWhole := hstage0_7 ((cfg0.slots t 7).cast nbuf0_7)
abbrev ms8 (t : Fin cfg0.N) : Memref sig .tc .vmem S400x128 .f32 := win0_8.stage (cfg0.slots t 8)
abbrev hms8 (t : Fin cfg0.N) : (ms8 t).IsWhole := hstage0_8 ((cfg0.slots t 8).cast nbuf0_8)
abbrev ms9 (t : Fin cfg0.N) : Memref sig .tc .vmem S64x128 .f32 := win0_9.stage (cfg0.slots t 9)
abbrev hms9 (t : Fin cfg0.N) : (ms9 t).IsWhole := hstage0_9 ((cfg0.slots t 9).cast nbuf0_9)
/-- The scratch operands: the hidden layer, the mirror of the first output, the pooled head. -/
abbrev scH : Memref sig .tc .vmem S10000x128 .f32 := Memref.whole cc0_scratch0
abbrev scS : Memref sig .tc .vmem S10000x128 .f32 := Memref.whole cc0_scratch1
abbrev scP : Memref sig .tc .vmem S64x128 .f32 := Memref.whole cc0_scratch2

/-- The region's invariant: each scratch buffer owned at some contents, and the generator register. -/
theorem PhiA_eq (c : Dev nD) :
    (Pipeline.ΦA spec0 c : sProp 𝕄)
      = iprop(iprop((∃ d, owns (c : Thread nD τ) scH fullShare d) ∗ (∃ d, owns (c : Thread nD τ) scS fullShare d) ∗ (∃ d, owns (c : Thread nD τ) scP fullShare d)) ∗ (∃ r, prngReg c r)) := by
  unfold Pipeline.ΦA; rw [scopedRest0_eq]; simp only [scH, scS, scP, owns_whole]; try rfl

end Cert.Kernel.Body

end
-- ==== Proof.Word.BodyRunPlain.lean ====
/-
  The body at a point that is neither the first, nor point 16, nor the last: no branch is taken. It loads the
  adjacency tile, the hidden layer from its scratch and W_gcn, and stores the normalised tile into the first
  output's window and into rows [400·i, 400·i + 400) of the mirror scratch. (The program as printed, at any float instance.)
-/
import proofs.«101997_g44092134261233_cont_8to1_c_785_18_alg».proof.Proof.Word.BodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runPlain (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : ¬condFirst i) (hc1 : ¬condPool i) (hc2 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh : Vec F S10000x128 .f32) (xs : Vec F S10000x128 .f32) (xp : Vec F S64x128 .f32) :
    Σ' (L8 : List (View.Piece (Elt F) S400x128 .f32)), { LS : List (View.Piece (Elt F) S10000x128 .f32) //
      ∀ (xi9 : Vec F S64x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xi9
            ∗ owns (c : Thread nD τ) arg11 fullShare xh
            ∗ owns (c : Thread nD τ) arg12 fullShare xs
            ∗ owns (c : Thread nD τ) arg13 fullShare xp
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ owns (c : Thread nD τ) arg10 fullShare xi9
              ∗ owns (c : Thread nD τ) arg11 fullShare xh
              ∗ (arg12.view.loc (c : Thread nD τ) ↦[arg12.view.set]{fullShare} arg12.view.writes (Elt F) (harg12.unread xs) LS)
              ∗ owns (c : Thread nD τ) arg13 fullShare xp) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fh, %hfh, HH⟩, ⟨%fs, %hfs, HS⟩, ⟨%fp, %hfp, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfh; obtain rfl := harg12.eq_unread hfs; obtain rfl := harg13.eq_unread hfp
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HH]
    · iexists _; isplitr; · ipureintro; exact harg11.read_unread _
      iexact HH
    isplitl [HS]; · iexact HS
    iexists _; isplitr; · ipureintro; exact harg13.read_unread _
    iexact HP

end Cert.Kernel.Body

end
-- ==== Proof.Word.BodyRunFirst.lean ====
/-
  The body at the first point: the first branch is taken. It computes the hidden layer from the three resident inputs
  and stores it whole into its scratch, then does what every point does with the scratch just written. (The program as printed.)
-/
import proofs.«101997_g44092134261233_cont_8to1_c_785_18_alg».proof.Proof.Word.BodyRunPlain

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runFirst (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : condFirst i) (hc1 : ¬condPool i) (hc2 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs : Vec F S10000x128 .f32) (xp : Vec F S64x128 .f32) :
    Σ' (L8 : List (View.Piece (Elt F) S400x128 .f32)), Σ' (LH : List (View.Piece (Elt F) S10000x128 .f32)), { LS : List (View.Piece (Elt F) S10000x128 .f32) //
      ∀ (xi9 : Vec F S64x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xi9
            ∗ (∃ d, owns (c : Thread nD τ) arg11 fullShare d)
            ∗ owns (c : Thread nD τ) arg12 fullShare xs
            ∗ owns (c : Thread nD τ) arg13 fullShare xp
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ owns (c : Thread nD τ) arg10 fullShare xi9
              ∗ (∃ f, arg11.view.loc (c : Thread nD τ) ↦[arg11.view.set]{fullShare} arg11.view.writes (Elt F) f LH)
              ∗ (arg12.view.loc (c : Thread nD τ) ↦[arg12.view.set]{fullShare} arg12.view.writes (Elt F) (harg12.unread xs) LS)
              ∗ owns (c : Thread nD τ) arg13 fullShare xp) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%dh, %fh, -, HH⟩, ⟨%fs, %hfs, HS⟩, ⟨%fp, %hfp, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg12.eq_unread hfs; obtain rfl := harg13.eq_unread hfp
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HH]; · iexists _; iexact HH
    isplitl [HS]; · iexact HS
    iexists _; isplitr; · ipureintro; exact harg13.read_unread _
    iexact HP

end Cert.Kernel.Body

end
-- ==== Proof.Word.BodyRunPool.lean ====
/-
  The body at point 16: after the tile's stores the second branch is taken; the product of the pooling weights' first
  6400 columns with rows [0, 6400) of the mirror scratch goes whole into the pooled-head scratch. (The program as printed.)
-/
import proofs.«101997_g44092134261233_cont_8to1_c_785_18_alg».proof.Proof.Word.BodyRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runPool (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : ¬condFirst i) (hc1 : condPool i) (hc2 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh : Vec F S10000x128 .f32) (xs : Vec F S10000x128 .f32) :
    Σ' (L8 : List (View.Piece (Elt F) S400x128 .f32)), Σ' (LP : List (View.Piece (Elt F) S64x128 .f32)), { LS : List (View.Piece (Elt F) S10000x128 .f32) //
      ∀ (xi9 : Vec F S64x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xi9
            ∗ owns (c : Thread nD τ) arg11 fullShare xh
            ∗ owns (c : Thread nD τ) arg12 fullShare xs
            ∗ (∃ d, owns (c : Thread nD τ) arg13 fullShare d)
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ owns (c : Thread nD τ) arg10 fullShare xi9
              ∗ owns (c : Thread nD τ) arg11 fullShare xh
              ∗ (arg12.view.loc (c : Thread nD τ) ↦[arg12.view.set]{fullShare} arg12.view.writes (Elt F) (harg12.unread xs) LS)
              ∗ (∃ f, arg13.view.loc (c : Thread nD τ) ↦[arg13.view.set]{fullShare} arg13.view.writes (Elt F) f LP)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fh, %hfh, HH⟩, ⟨%fs, %hfs, HS⟩, ⟨%dp, %fp, -, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfh; obtain rfl := harg12.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HH]
    · iexists _; isplitr; · ipureintro; exact harg11.read_unread _
      iexact HH
    isplitl [HS]; · iexact HS
    iexists _; iexact HP

end Cert.Kernel.Body

end
-- ==== Proof.Word.BodyRunLast.lean ====
/-
  The body at the last point: after the tile's stores the third branch is taken; the remaining rows' pooling is added to
  the pooled head, and the graph embedding is stored whole into the second output's window. (The program as printed.)
-/
import proofs.«101997_g44092134261233_cont_8to1_c_785_18_alg».proof.Proof.Word.BodyRunPool

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runLast (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : ¬condFirst i) (hc1 : ¬condPool i) (hc2 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh : Vec F S10000x128 .f32) (xs : Vec F S10000x128 .f32) (xp : Vec F S64x128 .f32) :
    Σ' (L8 : List (View.Piece (Elt F) S400x128 .f32)), Σ' (L9 : List (View.Piece (Elt F) S64x128 .f32)), { LS : List (View.Piece (Elt F) S10000x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ (∃ d, owns (c : Thread nD τ) arg10 fullShare d)
            ∗ owns (c : Thread nD τ) arg11 fullShare xh
            ∗ owns (c : Thread nD τ) arg12 fullShare xs
            ∗ owns (c : Thread nD τ) arg13 fullShare xp
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ owns (c : Thread nD τ) arg11 fullShare xh
              ∗ (arg12.view.loc (c : Thread nD τ) ↦[arg12.view.set]{fullShare} arg12.view.writes (Elt F) (harg12.unread xs) LS)
              ∗ owns (c : Thread nD τ) arg13 fullShare xp) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fh, %hfh, HH⟩, ⟨%fs, %hfs, HS⟩, ⟨%fp, %hfp, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfh; obtain rfl := harg12.eq_unread hfs; obtain rfl := harg13.eq_unread hfp
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HH]
    · iexists _; isplitr; · ipureintro; exact harg11.read_unread _
      iexact HH
    isplitl [HS]; · iexact HS
    iexists _; isplitr; · ipureintro; exact harg13.read_unread _
    iexact HP

end Cert.Kernel.Body

end
-- ==== Proof.Word.BodyFrame.lean ====
/-
  The frame of the kernel as printed, at any float instance: the same proof as for its idealisation (the two programs
  have one text). The hidden layer is computed at the first point and kept in a scratch buffer; every point stores its
  normalised tile into the first output's window and into its rows of the mirror scratch; point 16 pools the rows
  finished so far; the last point adds the rest and stores the graph embedding. The invariant between points names
  what the three scratch buffers hold where a later point reads it, and leaves the rest existentially quantified.
-/
import proofs.«101997_g44092134261233_cont_8to1_c_785_18_alg».proof.Proof.Word.BodyRunLast
import Idealize.ShloMosaic.Lib.WritesUnit
import Idealize.ShloMosaic.Lib.ValueIdx
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Loads through whole rectangles -/

theorem zeros2 : (![0, 0] : Fin 2 → ℕ) = fun _ => 0 := by funext a; fin_cases a <;> rfl
theorem zeros1 : (![0] : Fin 1 → ℕ) = fun _ => 0 := by funext a; fin_cases a; rfl

/-- A load of a whole memref through the rectangle of all of it reads the contents. -/
theorem load_whole {S : Shape} (a : Memref sig .tc .vmem S .f32) (ha : a.IsWhole) (x : Vec F S .f32)
    {off : Fin S.rank → ℕ} (hz : off = fun _ => 0) (inb : ∀ d, off d + S.size d ≤ S.size d) :
    View.readAt (Elt F) a.view (Rect.unit off S.size inb).toLoadRect (ha.unread x) = x := by
  rw [View.readAt_eq_ld, ha.read_unread]
  exact View.ld_unit_zero hz inb x

/-! ## The three special points -/

abbrev tFirst : Fin cfg0.N := ⟨0, by decide⟩
abbrev tPool : Fin cfg0.N := ⟨16, by decide⟩
abbrev tLast : Fin cfg0.N := ⟨24, by decide⟩

/-! ## What the kernel computes, from the launched arrays -/

/-- The hidden layer: the first branch's payload of the three resident inputs. -/
def hidV (c : Dev nD) : Vec F S10000x128 .f32 := k0_pay1 (iblk m c 2 tFirst) (iblk m c 3 tFirst) (iblk m c 4 tFirst)

/-- The tile of point `t`: the body's payload of the adjacency tile, the hidden layer and W_gcn. -/
def tileV (c : Dev nD) (t : Fin cfg0.N) : Vec F S400x128 .f32 := k0_pay2 (iblk m c 0 t) (hidV m c) (iblk m c 5 t)

theorem row_tile_lt (r : Fin 10000) : r.val / 400 < cfg0.N := by
  have h : cfg0.N = 25 := N_0
  have := r.isLt
  omega

/-- Row `r` of the tiles stacked: row `r % 400` of tile `r / 400`. -/
def mirrorAt (c : Dev nD) (r : Fin 10000) (q : Fin 128) : F .f32 :=
  tileV m c ⟨r.val / 400, row_tile_lt r⟩ (ix2 ⟨r.val % 400, Nat.mod_lt _ (by norm_num)⟩ q)

/-- The tiles stacked, as one array: what the first output and, row by row, the mirror end up holding. -/
def mirrorV (c : Dev nD) : Vec F S10000x128 .f32 := fun y => mirrorAt m c (y 0) (y 1)

/-- The pooled head: the second branch's payload of the pooling weights' first 6400 columns and the stack's first 6400 rows. -/
def poolV (c : Dev nD) : Vec F S64x128 .f32 :=
  k0_pay4 (View.ld (iblk m c 1 tPool) (Rect.unit (s := S64x10000) ![0, 0] S64x6400.size inb_S64x10000_S64x6400_0_0))
    (View.ld (mirrorV m c) (Rect.unit (s := S10000x128) ![0, 0] S6400x128.size inb_S10000x128_S6400x128_0_0))

/-- The graph embedding: the third branch's payload of the pooled head, the remaining 3600 columns and rows, W_g and b_g. -/
def finalV (c : Dev nD) : Vec F S64x128 .f32 :=
  k0_pay5 (poolV m c) (View.ld (iblk m c 1 tLast) (Rect.unit (s := S64x10000) ![0, 6400] S64x3600.size inb_S64x10000_S64x3600_0_6400))
    (View.ld (mirrorV m c) (Rect.unit (s := S10000x128) ![6400, 0] S3600x128.size inb_S10000x128_S3600x128_6400_0))
    (iblk m c 6 tLast) (iblk m c 7 tLast)

/-! ## The mirror after a tile store -/

/-- The mirror scratch (through any whole memref of it) after rows [400·i, 400·i + 400) are overwritten by `w`. -/
def mirrorNext (a : Memref sig .tc .vmem S10000x128 .f32) (ha : a.IsWhole) (i : grid0.Coords) (xs : Vec F S10000x128 .f32)
    (w : Vec F S400x128 .f32) : Vec F S10000x128 .f32 :=
  a.view.read (Elt F) (a.view.writes (Elt F) (ha.unread xs) [⟨Rect.unit (s := S10000x128) (k0_off1 i) S400x128.size (k0_off1_inb i), w⟩])

/-- Inside the stored rows it reads the tile, -/
theorem mirrorNext_in (a : Memref sig .tc .vmem S10000x128 .f32) (ha : a.IsWhole) (t : Fin cfg0.N) (xs : Vec F S10000x128 .f32)
    (w : Vec F S400x128 .f32) (p : Fin 400) (q : Fin 128) (r : Fin 10000) (hr : r.val = 400 * t.val + p.val) :
    mirrorNext a ha (grid0.coords t) xs w (ix2 r q) = w (ix2 p q) := by
  unfold mirrorNext
  exact View.read_writes_cons_rows_of_mem a.view (ha.unread xs) (k0_off1_inb _) w [] (ix2 r q) (ix2 p q) (off1_eq t) hr rfl

/-- outside them what was there. -/
theorem mirrorNext_out (a : Memref sig .tc .vmem S10000x128 .f32) (ha : a.IsWhole) (t : Fin cfg0.N) (xs : Vec F S10000x128 .f32)
    (w : Vec F S400x128 .f32) (q : Fin 128) (r : Fin 10000) (h : r.val < 400 * t.val ∨ 400 * t.val + 400 ≤ r.val) :
    mirrorNext a ha (grid0.coords t) xs w (ix2 r q) = xs (ix2 r q) := by
  unfold mirrorNext
  rw [View.read_writes_cons_rows_of_not_mem a.view (ha.unread xs) (k0_off1_inb _) w [] (ix2 r q) (off1_eq t) rfl h,
    View.writes_nil, ha.read_unread]

/-- The second store's payload is the first's: a shape cast to the same shape. -/
theorem pay3_eq (a : Vec F S400x10000 .f32) (b : Vec F S10000x128 .f32) (d : Vec F S128x128 .f32) : k0_pay3 a b d = k0_pay2 a b d := by
  unfold k0_pay3; exact shapeCast_self _ _

/-- One store through the whole rectangle leaves its payload, whatever was there. -/
theorem read_one_whole {S : Shape} (v : View sig .tc .vmem S .f32) (f : v.ty.Contents (Elt F)) {off : Fin S.rank → ℕ}
    (hz : off = fun _ => 0) (inb : ∀ d, off d + S.size d ≤ S.size d) (w : S.Idx → F .f32) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-! ## The pieces each case's run found, in closed form -/

section Pieces
variable (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole)
  (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh xs : Vec F S10000x128 .f32) (xp : Vec F S64x128 .f32)

theorem plain_out (hc0 : ¬condFirst i) (hc1 : ¬condPool i) (hc2 : ¬condLast i) :
    (runPlain c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).1 = [⟨Rect.unit ![0, 0] S400x128.size inb_S400x128_S400x128_0_0, k0_pay2 x0 xh x5⟩] := by
  unfold runPlain; dsimp only
  rw [load_whole arg1 harg1 x0 zeros2, load_whole arg11 harg11 xh zeros2, load_whole arg6 harg6 x5 zeros2]

theorem plain_mirror (hc0 : ¬condFirst i) (hc1 : ¬condPool i) (hc2 : ¬condLast i) :
    (runPlain c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).2.1 = [⟨Rect.unit (s := S10000x128) (k0_off1 i) S400x128.size (k0_off1_inb i), k0_pay3 x0 xh x5⟩] := by
  unfold runPlain; dsimp only
  rw [load_whole arg1 harg1 x0 zeros2, load_whole arg11 harg11 xh zeros2, load_whole arg6 harg6 x5 zeros2]

theorem first_out (hc0 : condFirst i) (hc1 : ¬condPool i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs xp).1 = [⟨Rect.unit ![0, 0] S400x128.size inb_S400x128_S400x128_0_0, k0_pay2 x0 (k0_pay1 x2 x3 x4) x5⟩] := by
  unfold runFirst; dsimp only; sl_unfold_words
  rw [View.readCov_unit_zero _ zeros2]
  rw [load_whole arg1 harg1 x0 zeros2, load_whole arg6 harg6 x5 zeros2, load_whole arg3 harg3 x2 zeros2, load_whole arg4 harg4 x3 zeros2, load_whole arg5 harg5 x4 zeros1]

theorem first_hid (hc0 : condFirst i) (hc1 : ¬condPool i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs xp).2.1 = [⟨Rect.unit ![0, 0] S10000x128.size inb_S10000x128_S10000x128_0_0, k0_pay1 x2 x3 x4⟩] := by
  unfold runFirst; dsimp only; sl_unfold_words
  rw [load_whole arg3 harg3 x2 zeros2, load_whole arg4 harg4 x3 zeros2, load_whole arg5 harg5 x4 zeros1]

theorem first_mirror (hc0 : condFirst i) (hc1 : ¬condPool i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs xp).2.2.1 = [⟨Rect.unit (s := S10000x128) (k0_off1 i) S400x128.size (k0_off1_inb i), k0_pay3 x0 (k0_pay1 x2 x3 x4) x5⟩] := by
  unfold runFirst; dsimp only; sl_unfold_words
  rw [View.readCov_unit_zero _ zeros2]
  rw [load_whole arg1 harg1 x0 zeros2, load_whole arg6 harg6 x5 zeros2, load_whole arg3 harg3 x2 zeros2, load_whole arg4 harg4 x3 zeros2, load_whole arg5 harg5 x4 zeros1]

theorem pool_out (hc0 : ¬condFirst i) (hc1 : condPool i) (hc2 : ¬condLast i) :
    (runPool c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs).1 = [⟨Rect.unit ![0, 0] S400x128.size inb_S400x128_S400x128_0_0, k0_pay2 x0 xh x5⟩] := by
  unfold runPool; dsimp only; sl_unfold_words
  rw [load_whole arg1 harg1 x0 zeros2, load_whole arg11 harg11 xh zeros2, load_whole arg6 harg6 x5 zeros2]

theorem pool_pool (hc0 : ¬condFirst i) (hc1 : condPool i) (hc2 : ¬condLast i) :
    (runPool c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs).2.1 = [⟨Rect.unit ![0, 0] S64x128.size inb_S64x128_S64x128_0_0,
      k0_pay4 (View.ld x1 (Rect.unit (s := S64x10000) ![0, 0] S64x6400.size inb_S64x10000_S64x6400_0_0))
        (View.ld (mirrorNext arg12 harg12 i xs (k0_pay3 x0 xh x5)) (Rect.unit (s := S10000x128) ![0, 0] S6400x128.size inb_S10000x128_S6400x128_0_0))⟩] := by
  unfold runPool; dsimp only; sl_unfold_words
  rw [load_whole arg1 harg1 x0 zeros2, load_whole arg11 harg11 xh zeros2, load_whole arg6 harg6 x5 zeros2]
  simp only [View.readAt_eq_ld, harg2.read_unread]
  rfl

theorem pool_mirror (hc0 : ¬condFirst i) (hc1 : condPool i) (hc2 : ¬condLast i) :
    (runPool c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs).2.2.1 = [⟨Rect.unit (s := S10000x128) (k0_off1 i) S400x128.size (k0_off1_inb i), k0_pay3 x0 xh x5⟩] := by
  unfold runPool; dsimp only; sl_unfold_words
  rw [load_whole arg1 harg1 x0 zeros2, load_whole arg11 harg11 xh zeros2, load_whole arg6 harg6 x5 zeros2]

theorem last_out (hc0 : ¬condFirst i) (hc1 : ¬condPool i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).1 = [⟨Rect.unit ![0, 0] S400x128.size inb_S400x128_S400x128_0_0, k0_pay2 x0 xh x5⟩] := by
  unfold runLast; dsimp only; sl_unfold_words
  rw [load_whole arg1 harg1 x0 zeros2, load_whole arg11 harg11 xh zeros2, load_whole arg6 harg6 x5 zeros2]

theorem last_final (hc0 : ¬condFirst i) (hc1 : ¬condPool i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).2.1 = [⟨Rect.unit ![0, 0] S64x128.size inb_S64x128_S64x128_0_0,
      k0_pay5 xp (View.ld x1 (Rect.unit (s := S64x10000) ![0, 6400] S64x3600.size inb_S64x10000_S64x3600_0_6400))
        (View.ld (mirrorNext arg12 harg12 i xs (k0_pay3 x0 xh x5)) (Rect.unit (s := S10000x128) ![6400, 0] S3600x128.size inb_S10000x128_S3600x128_6400_0))
        x6 x7⟩] := by
  unfold runLast; dsimp only; sl_unfold_words
  rw [load_whole arg1 harg1 x0 zeros2, load_whole arg11 harg11 xh zeros2, load_whole arg6 harg6 x5 zeros2, load_whole arg13 harg13 xp zeros2, load_whole arg7 harg7 x6 zeros2, load_whole arg8 harg8 x7 zeros1]
  simp only [View.readAt_eq_ld, harg2.read_unread]
  rfl

theorem last_mirror (hc0 : ¬condFirst i) (hc1 : ¬condPool i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).2.2.1 = [⟨Rect.unit (s := S10000x128) (k0_off1 i) S400x128.size (k0_off1_inb i), k0_pay3 x0 xh x5⟩] := by
  unfold runLast; dsimp only; sl_unfold_words
  rw [load_whole arg1 harg1 x0 zeros2, load_whole arg11 harg11 xh zeros2, load_whole arg6 harg6 x5 zeros2]

end Pieces

/-! ## The invariant between points -/

/-- Rows below 400·n of the mirror hold their tiles. -/
def MirrorOk (c : Dev nD) (n : ℕ) (XS : Vec F S10000x128 .f32) : Prop :=
  ∀ y : S10000x128.Idx, (y 0).val < 400 * n → XS y = mirrorV m c y

theorem mirrorV_ix2 (c : Dev nD) (r : Fin 10000) (q : Fin 128) : mirrorV m c (ix2 r q) = mirrorAt m c r q := rfl

/-- Storing tile `t` into rows [400·t, 400·t + 400) extends the finished rows by one tile. -/
theorem mirror_step (c : Dev nD) (a : Memref sig .tc .vmem S10000x128 .f32) (ha : a.IsWhole) (t : Fin cfg0.N)
    (xs : Vec F S10000x128 .f32) (h : MirrorOk m c t.val xs) :
    MirrorOk m c (t.val + 1) (mirrorNext a ha (grid0.coords t) xs (tileV m c t)) := by
  intro y hy
  obtain ⟨r, q, rfl⟩ : ∃ (r : Fin 10000) (q : Fin 128), y = ix2 r q := ⟨y 0, y 1, eq_ix2 y⟩
  have hr : r.val < 400 * (t.val + 1) := hy
  by_cases hlt : r.val < 400 * t.val
  · rw [mirrorNext_out a ha t xs _ q r (Or.inl hlt)]; exact h (ix2 r q) hlt
  · rw [mirrorNext_in a ha t xs _ ⟨r.val - 400 * t.val, by omega⟩ q r (by show r.val = 400 * t.val + (r.val - 400 * t.val); omega), mirrorV_ix2]
    unfold mirrorAt
    have e1 : (⟨r.val / 400, row_tile_lt r⟩ : Fin cfg0.N) = t := Fin.ext (by show r.val / 400 = t.val; omega)
    have e2 : (⟨r.val % 400, Nat.mod_lt _ (by norm_num)⟩ : Fin 400) = ⟨r.val - 400 * t.val, by omega⟩ :=
      Fin.ext (by show r.val % 400 = r.val - 400 * t.val; omega)
    rw [e1, e2]

/-- Once 17 tiles are in, a load of rows [0, 6400) of the mirror reads the stack's; -/
theorem ld_mirror_head (c : Dev nD) (XS : Vec F S10000x128 .f32) (h : MirrorOk m c 17 XS) :
    View.ld XS (Rect.unit (s := S10000x128) ![0, 0] S6400x128.size inb_S10000x128_S6400x128_0_0)
      = View.ld (mirrorV m c) (Rect.unit (s := S10000x128) ![0, 0] S6400x128.size inb_S10000x128_S6400x128_0_0) := by
  funext x
  refine h _ ?_
  have h6 : (x 0).val < 6400 := (x 0).isLt
  show 0 + 1 * (x 0).val < 400 * 17
  omega

/-- once all 25 are, a load of rows [6400, 10000) does. -/
theorem ld_mirror_tail (c : Dev nD) (XS : Vec F S10000x128 .f32) (h : MirrorOk m c 25 XS) :
    View.ld XS (Rect.unit (s := S10000x128) ![6400, 0] S3600x128.size inb_S10000x128_S3600x128_6400_0)
      = View.ld (mirrorV m c) (Rect.unit (s := S10000x128) ![6400, 0] S3600x128.size inb_S10000x128_S3600x128_6400_0) := by
  funext x
  refine h _ ?_
  have h6 : (x 0).val < 3600 := (x 0).isLt
  show 6400 + 1 * (x 0).val < 400 * 25
  omega

/-- What is known of the three scratch buffers before point `n`. -/
def Inv (c : Dev nD) (n : ℕ) (XH XS : Vec F S10000x128 .f32) (XP : Vec F S64x128 .f32) : Prop :=
  (0 < n → XH = hidV m c) ∧ MirrorOk m c n XS ∧ (16 < n → XP = poolV m c)

/-- The region's invariant before point `n`: the scratch buffers at contents of which `Inv` holds, the generator register at some state. -/
def Phi (c : Dev nD) (n : ℕ) : sProp 𝕄 :=
  iprop(iprop(∃ XH XS XP, ⌜Inv m c n XH XS XP⌝ ∗ owns (c : Thread nD τ) scH fullShare XH ∗ owns (c : Thread nD τ) scS fullShare XS ∗ owns (c : Thread nD τ) scP fullShare XP) ∗ (∃ r, prngReg c r))

/-! ## The pipeline's proof data -/

/-- The arrays as the region finds them; after the body at point `t` each input's buffer at its block, the first
    output's at tile `t`, the second's at the graph embedding (stored at the last point only: elsewhere the window is idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tileV m c t
    | ⟨9, _⟩ => finalV m c
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = tileV m c t := by dsimp only [dats]
theorem after9 (c : Dev nD) (t : Fin cfg0.N) : (dats m 0 c).after 9 t = finalV m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point. The inputs' memrefs hold their blocks; which of the four cases the point is in is decided
    by the coordinate; the invariant hands the run the three scratch buffers (at what `Inv` says where the case
    reads them, at anything where it overwrites them whole) and takes them back with the hidden layer, the mirror
    one tile further and the pooled head as the next point needs them; each output's window ends at its named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, Phi_castSucc]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  by_cases h0 : t.val = 0
  · have ht : t = tFirst := Fin.ext h0
    have hc0 : condFirst (grid0.coords t) := (hcondFirst t).mpr h0
    have hc1 : ¬condPool (grid0.coords t) := fun h => absurd ((hcondPool t).mp h) (by omega)
    have hc2 : ¬condLast (grid0.coords t) := fun h => absurd ((hcondLast t).mp h) (by omega)
    rw [Dat.leavesExact_idle (dats m 0 c) 9 t (idleAt9 t hc2) (noFlush9 t hc2)]
    unfold Phi
    iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨hH, hM, hP⟩ := hinv
    have hM' := mirror_step m c scS (Memref.isWhole_whole _) t XS hM
    have hH1 : k0_pay1 (iblk m c 2 t) (iblk m c 3 t) (iblk m c 4 t) = hidV m c := by rw [ht]; rfl
    iapply ((runFirst c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) XS XP).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HH]; · iexists _; iexact HH
    isplitl [HS]; · iexact HS
    isplitl [HP]; · iexact HP
    iintro ⟨H0, H1, H2, H3, H4, H5, H6, H7, ⟨%f8, H8⟩, H9, ⟨%fh, HH⟩, HS, HP⟩
    isplitl [HH HS HP Hg]
    · isplitl [HH HS HP]
      · iexists (hidV m c); iexists (mirrorNext scS (Memref.isWhole_whole _) (grid0.coords t) XS (tileV m c t)); iexists XP
        isplitr
        · ipureintro; exact ⟨fun _ => rfl, hM', fun h => absurd h (by omega)⟩
        isplitl [HH]
        · unfold owns; iexists _; isplitr
          swap; · iexact HH
          ipureintro; rw [first_hid, read_one_whole _ _ zeros2, hH1]
        isplitl [HS]
        · unfold owns; iexists _; isplitr
          swap; · iexact HS
          ipureintro; rw [first_mirror, pay3_eq, hH1]; rfl
        iexact HP
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [first_out, read_one_whole _ _ zeros2, hH1]; rfl
    iexists _; iexact H9
  · have hc0 : ¬condFirst (grid0.coords t) := fun h => h0 ((hcondFirst t).mp h)
    by_cases h16 : t.val = 16
    · have ht : t = tPool := Fin.ext h16
      have hc1 : condPool (grid0.coords t) := (hcondPool t).mpr h16
      have hc2 : ¬condLast (grid0.coords t) := fun h => absurd ((hcondLast t).mp h) (by omega)
      rw [Dat.leavesExact_idle (dats m 0 c) 9 t (idleAt9 t hc2) (noFlush9 t hc2)]
      unfold Phi
      iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain ⟨hH, hM, hP⟩ := hinv
      have hXH := hH (by omega)
      subst hXH
      have hM' := mirror_step m c scS (Memref.isWhole_whole _) t XS hM
      iapply ((runPool c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidV m c) XS).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HH]; · iexact HH
      isplitl [HS]; · iexact HS
      isplitl [HP]; · iexists _; iexact HP
      iintro ⟨H0, H1, H2, H3, H4, H5, H6, H7, ⟨%f8, H8⟩, H9, HH, HS, ⟨%fp, HP⟩⟩
      isplitl [HH HS HP Hg]
      · isplitl [HH HS HP]
        · iexists (hidV m c); iexists (mirrorNext scS (Memref.isWhole_whole _) (grid0.coords t) XS (tileV m c t)); iexists (poolV m c)
          isplitr
          · ipureintro; exact ⟨fun _ => rfl, hM', fun _ => rfl⟩
          isplitl [HH]; · iexact HH
          isplitl [HS]
          · unfold owns; iexists _; isplitr
            swap; · iexact HS
            ipureintro; rw [pool_mirror, pay3_eq]; rfl
          unfold owns; iexists _; isplitr
          swap; · iexact HP
          ipureintro; rw [pool_pool, read_one_whole _ _ zeros2, pay3_eq]
          rw [show t.val + 1 = 17 from by omega] at hM'
          show k0_pay4 _ (View.ld (mirrorNext scS _ (grid0.coords t) XS (tileV m c t)) (Rect.unit (s := S10000x128) ![0, 0] S6400x128.size inb_S10000x128_S6400x128_0_0)) = poolV m c
          rw [ld_mirror_head m c _ hM', ht]; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; rw [pool_out, read_one_whole _ _ zeros2]; rfl
      iexists _; iexact H9
    · have hc1 : ¬condPool (grid0.coords t) := fun h => h16 ((hcondPool t).mp h)
      by_cases h24 : t.val = 24
      · have ht : t = tLast := Fin.ext h24
        have hc2 : condLast (grid0.coords t) := (hcondLast t).mpr h24
        rw [show (dats m 0 c).leavesExact 9 t = owns (c : Thread nD τ) (ms9 t) fullShare ((dats m 0 c).after 9 t) from by
          unfold Dat.leavesExact; rw [liveAt9 t hc2], after9]
        unfold Phi
        iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        obtain ⟨hH, hM, hP⟩ := hinv
        have hXH := hH (by omega)
        subst hXH
        have hXP := hP (by omega)
        subst hXP
        have hM' := mirror_step m c scS (Memref.isWhole_whole _) t XS hM
        iapply ((runLast c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidV m c) XS (poolV m c)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HH]; · iexact HH
        isplitl [HS]; · iexact HS
        isplitl [HP]; · iexact HP
        iintro ⟨H0, H1, H2, H3, H4, H5, H6, H7, ⟨%f8, H8⟩, ⟨%f9, H9⟩, HH, HS, HP⟩
        isplitl [HH HS HP Hg]
        · isplitl [HH HS HP]
          · iexists (hidV m c); iexists (mirrorNext scS (Memref.isWhole_whole _) (grid0.coords t) XS (tileV m c t)); iexists (poolV m c)
            isplitr
            · ipureintro; exact ⟨fun _ => rfl, hM', fun _ => rfl⟩
            isplitl [HH]; · iexact HH
            isplitl [HS]
            · unfold owns; iexists _; isplitr
              swap; · iexact HS
              ipureintro; rw [last_mirror, pay3_eq]; rfl
            iexact HP
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; rw [last_out, read_one_whole _ _ zeros2]; rfl
        unfold owns; iexists _; isplitr
        swap; · iexact H9
        ipureintro; rw [last_final, read_one_whole _ _ zeros2, pay3_eq]
        rw [show t.val + 1 = 25 from by omega] at hM'
        show k0_pay5 _ _ (View.ld (mirrorNext scS _ (grid0.coords t) XS (tileV m c t)) (Rect.unit (s := S10000x128) ![6400, 0] S3600x128.size inb_S10000x128_S3600x128_6400_0)) _ _ = finalV m c
        rw [ld_mirror_tail m c _ hM', ht]; rfl
      · have hc2 : ¬condLast (grid0.coords t) := fun h => h24 ((hcondLast t).mp h)
        rw [Dat.leavesExact_idle (dats m 0 c) 9 t (idleAt9 t hc2) (noFlush9 t hc2)]
        unfold Phi
        iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        obtain ⟨hH, hM, hP⟩ := hinv
        have hXH := hH (by omega)
        subst hXH
        have hM' := mirror_step m c scS (Memref.isWhole_whole _) t XS hM
        iapply ((runPlain c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidV m c) XS XP).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HH]; · iexact HH
        isplitl [HS]; · iexact HS
        isplitl [HP]; · iexact HP
        iintro ⟨H0, H1, H2, H3, H4, H5, H6, H7, ⟨%f8, H8⟩, H9, HH, HS, HP⟩
        isplitl [HH HS HP Hg]
        · isplitl [HH HS HP]
          · iexists (hidV m c); iexists (mirrorNext scS (Memref.isWhole_whole _) (grid0.coords t) XS (tileV m c t)); iexists XP
            isplitr
            · ipureintro; exact ⟨fun _ => rfl, hM', fun h => hP (by omega)⟩
            isplitl [HH]; · iexact HH
            isplitl [HS]
            · unfold owns; iexists _; isplitr
              swap; · iexact HS
              ipureintro; rw [plain_mirror, pay3_eq]; rfl
            iexact HP
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; rw [plain_out, read_one_whole _ _ zeros2]; rfl
        iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch buffers. -/
theorem hin (c : Dev nD) : Pipeline.ΦA spec0 c ⊢ (dats m 0 c).Φ 0 := by
  rw [show (dats m 0 c).Φ 0 = Phi m c 0 from rfl, PhiA_eq]
  unfold Phi
  iintro ⟨⟨⟨%dh, HH⟩, ⟨%ds, HS⟩, ⟨%dp, HP⟩⟩, Hg⟩
  isplitl [HH HS HP]
  · iexists dh; iexists ds; iexists dp
    isplitr
    · ipureintro; exact ⟨fun h => absurd h (by omega), fun y hy => absurd hy (by omega), fun h => absurd h (by omega)⟩
    isplitl [HH]; · iexact HH
    isplitl [HS]; · iexact HS
    iexact HP
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%XH, %XS, %XP, %hinv, HH, HS, HP⟩, Hg⟩
  isplitl [HH HS HP]
  · isplitl [HH]; · iexists _; iexact HH
    isplitl [HS]; · iexists _; iexact HS
    iexists _; iexact HP
  iexact Hg

/-! ## The run and the frame -/

set_option backward.isDefEq.respectTransparency.types false in
/-- Every weakly fair execution of @main terminates, and every final state has each array of the pipeline at what the
    library computes from the proof data: the inputs unchanged, the outputs as written back block by block. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run ends with the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.BodyShared.lean ====
/-
  What the runs of the kernel body share. The body branches three times on the grid coordinate: at the
  first point it fills the hidden-layer scratch, at point 16 it pools the rows finished so far, at the
  last point it adds the remaining rows' pooling and writes the graph embedding. Here: the three
  conditions in closed form over the 25 points; where the second output's window is idle (everywhere
  but the last point, which is also the only point that writes it back); names for the staging memrefs
  the pipeline passes at a point and for the three scratch memrefs; and the region's invariant opened
  into the three scratch buffers at some contents and the generator register.
-/
import proofs.«101997_g44092134261233_cont_8to1_c_785_18_alg».proof.Proof.Gen.KernelIdeal.Frame
import proofs.«101997_g44092134261233_cont_8to1_c_785_18_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The first branch is taken: the grid coordinate is 0. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch is taken: the grid coordinate is 16. -/
abbrev condPool (i : grid0.Coords) : Prop := (Scalar.cmpi .ne (Scalar.extui (Scalar.cmpi .eq (BitVec.ofNat 32 (i 0).val) 16#32)) 0#32) = 1#1
theorem hcondPool : ∀ t : Fin cfg0.N, condPool (grid0.coords t) ↔ t.val = 16 :=
  (by decide +kernel : ∀ t : Fin grid0.N, condPool (grid0.coords t) ↔ t.val = 16)

/-- The third branch is taken: the grid coordinate is 24, the last. -/
abbrev condLast (i : grid0.Coords) : Prop := k0_cond3 i = 1#1
theorem hcondLast : ∀ t : Fin cfg0.N, condLast (grid0.coords t) ↔ t.val = 24 :=
  (by decide +kernel : ∀ t : Fin grid0.N, condLast (grid0.coords t) ↔ t.val = 24)

/-- The row offset of the tile the body stores into the mirror scratch at a point: 400 times the coordinate. -/
theorem off1_eq : ∀ t : Fin cfg0.N, k0_off1 (grid0.coords t) = ![400 * t.val, 0] :=
  (by decide +kernel : ∀ t : Fin grid0.N, k0_off1 (grid0.coords t) = ![400 * t.val, 0])

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
/-- Away from the last point the body stores nothing into the second output's window, -/
theorem idleAt9 : ∀ t : Fin cfg0.N, ¬condLast (grid0.coords t) → cfg0.idle 9 (grid0.coords t) = true := by decide +kernel
/-- and the pipeline does not write it back there; -/
theorem noFlush9 : ∀ t : Fin cfg0.N, ¬condLast (grid0.coords t) → (cfg0.win 9).flush t = false := by decide +kernel
/-- at the last point it is live. -/
theorem liveAt9 : ∀ t : Fin cfg0.N, condLast (grid0.coords t) → cfg0.idle 9 (grid0.coords t) = false := by decide +kernel

/-! ## The memrefs the body is called with -/

abbrev ms0 (t : Fin cfg0.N) : Memref sig .tc .vmem S400x10000 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S64x10000 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S128 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hms6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hms7 (t : Fin cfg0.N) : (ms7 t).IsWhole := hstage0_7 ((cfg0.slots t 7).cast nbuf0_7)
abbrev ms8 (t : Fin cfg0.N) : Memref sig .tc .vmem S400x128 .f32 := win0_8.stage (cfg0.slots t 8)
abbrev hms8 (t : Fin cfg0.N) : (ms8 t).IsWhole := hstage0_8 ((cfg0.slots t 8).cast nbuf0_8)
abbrev ms9 (t : Fin cfg0.N) : Memref sig .tc .vmem S64x128 .f32 := win0_9.stage (cfg0.slots t 9)
abbrev hms9 (t : Fin cfg0.N) : (ms9 t).IsWhole := hstage0_9 ((cfg0.slots t 9).cast nbuf0_9)
/-- The scratch operands: the hidden layer, the mirror of the first output, the pooled head. -/
abbrev scH : Memref sig .tc .vmem S10000x128 .f32 := Memref.whole cc0_scratch0
abbrev scS : Memref sig .tc .vmem S10000x128 .f32 := Memref.whole cc0_scratch1
abbrev scP : Memref sig .tc .vmem S64x128 .f32 := Memref.whole cc0_scratch2

/-- The region's invariant: each scratch buffer owned at some contents, and the generator register. -/
theorem PhiA_eq (c : Dev nD) :
    (Pipeline.ΦA spec0 c : sProp 𝕄)
      = iprop(iprop((∃ d, owns (c : Thread nD τ) scH fullShare d) ∗ (∃ d, owns (c : Thread nD τ) scS fullShare d) ∗ (∃ d, owns (c : Thread nD τ) scP fullShare d)) ∗ (∃ r, prngReg c r)) := by
  unfold Pipeline.ΦA; rw [scopedRest0_eq]; simp only [scH, scS, scP, owns_whole]; try rfl

end Cert.KernelIdeal.Body

end
-- ==== Proof.BodyRunPlain.lean ====
/-
  The body at a point that is neither the first, nor point 16, nor the last: no branch is taken. It loads the
  adjacency tile, the hidden layer from its scratch and W_gcn, and stores the normalised tile into the first
  output's window and into rows [400·i, 400·i + 400) of the mirror scratch.
-/
import proofs.«101997_g44092134261233_cont_8to1_c_785_18_alg».proof.Proof.BodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runPlain (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : ¬condFirst i) (hc1 : ¬condPool i) (hc2 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh : Vec F S10000x128 .f32) (xs : Vec F S10000x128 .f32) (xp : Vec F S64x128 .f32) :
    Σ' (L8 : List (View.Piece (Elt F) S400x128 .f32)), { LS : List (View.Piece (Elt F) S10000x128 .f32) //
      ∀ (xi9 : Vec F S64x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xi9
            ∗ owns (c : Thread nD τ) arg11 fullShare xh
            ∗ owns (c : Thread nD τ) arg12 fullShare xs
            ∗ owns (c : Thread nD τ) arg13 fullShare xp
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ owns (c : Thread nD τ) arg10 fullShare xi9
              ∗ owns (c : Thread nD τ) arg11 fullShare xh
              ∗ (arg12.view.loc (c : Thread nD τ) ↦[arg12.view.set]{fullShare} arg12.view.writes (Elt F) (harg12.unread xs) LS)
              ∗ owns (c : Thread nD τ) arg13 fullShare xp) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fh, %hfh, HH⟩, ⟨%fs, %hfs, HS⟩, ⟨%fp, %hfp, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfh; obtain rfl := harg12.eq_unread hfs; obtain rfl := harg13.eq_unread hfp
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HH]
    · iexists _; isplitr; · ipureintro; exact harg11.read_unread _
      iexact HH
    isplitl [HS]; · iexact HS
    iexists _; isplitr; · ipureintro; exact harg13.read_unread _
    iexact HP

end Cert.KernelIdeal.Body

end
-- ==== Proof.BodyRunFirst.lean ====
/-
  The body at the first point: the first branch is taken. It computes the hidden layer max (X · W_inᵀ + b_in) 0 from the
  three resident inputs and stores it whole into its scratch, then does what every point does with the scratch just
  written: the normalised tile goes to the first output's window and to rows [0, 400) of the mirror scratch.
-/
import proofs.«101997_g44092134261233_cont_8to1_c_785_18_alg».proof.Proof.BodyRunPlain

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runFirst (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : condFirst i) (hc1 : ¬condPool i) (hc2 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs : Vec F S10000x128 .f32) (xp : Vec F S64x128 .f32) :
    Σ' (L8 : List (View.Piece (Elt F) S400x128 .f32)), Σ' (LH : List (View.Piece (Elt F) S10000x128 .f32)), { LS : List (View.Piece (Elt F) S10000x128 .f32) //
      ∀ (xi9 : Vec F S64x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xi9
            ∗ (∃ d, owns (c : Thread nD τ) arg11 fullShare d)
            ∗ owns (c : Thread nD τ) arg12 fullShare xs
            ∗ owns (c : Thread nD τ) arg13 fullShare xp
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ owns (c : Thread nD τ) arg10 fullShare xi9
              ∗ (∃ f, arg11.view.loc (c : Thread nD τ) ↦[arg11.view.set]{fullShare} arg11.view.writes (Elt F) f LH)
              ∗ (arg12.view.loc (c : Thread nD τ) ↦[arg12.view.set]{fullShare} arg12.view.writes (Elt F) (harg12.unread xs) LS)
              ∗ owns (c : Thread nD τ) arg13 fullShare xp) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%dh, %fh, -, HH⟩, ⟨%fs, %hfs, HS⟩, ⟨%fp, %hfp, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg12.eq_unread hfs; obtain rfl := harg13.eq_unread hfp
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HH]; · iexists _; iexact HH
    isplitl [HS]; · iexact HS
    iexists _; isplitr; · ipureintro; exact harg13.read_unread _
    iexact HP

end Cert.KernelIdeal.Body

end
-- ==== Proof.BodyRunPool.lean ====
/-
  The body at point 16: after the tile's stores the second branch is taken. It loads the first 6400 columns of the
  pooling weights and rows [0, 6400) of the mirror scratch — all of them final by now — and stores their product
  whole into the pooled-head scratch.
-/
import proofs.«101997_g44092134261233_cont_8to1_c_785_18_alg».proof.Proof.BodyRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runPool (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : ¬condFirst i) (hc1 : condPool i) (hc2 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh : Vec F S10000x128 .f32) (xs : Vec F S10000x128 .f32) :
    Σ' (L8 : List (View.Piece (Elt F) S400x128 .f32)), Σ' (LP : List (View.Piece (Elt F) S64x128 .f32)), { LS : List (View.Piece (Elt F) S10000x128 .f32) //
      ∀ (xi9 : Vec F S64x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xi9
            ∗ owns (c : Thread nD τ) arg11 fullShare xh
            ∗ owns (c : Thread nD τ) arg12 fullShare xs
            ∗ (∃ d, owns (c : Thread nD τ) arg13 fullShare d)
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ owns (c : Thread nD τ) arg10 fullShare xi9
              ∗ owns (c : Thread nD τ) arg11 fullShare xh
              ∗ (arg12.view.loc (c : Thread nD τ) ↦[arg12.view.set]{fullShare} arg12.view.writes (Elt F) (harg12.unread xs) LS)
              ∗ (∃ f, arg13.view.loc (c : Thread nD τ) ↦[arg13.view.set]{fullShare} arg13.view.writes (Elt F) f LP)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fh, %hfh, HH⟩, ⟨%fs, %hfs, HS⟩, ⟨%dp, %fp, -, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfh; obtain rfl := harg12.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HH]
    · iexists _; isplitr; · ipureintro; exact harg11.read_unread _
      iexact HH
    isplitl [HS]; · iexact HS
    iexists _; iexact HP

end Cert.KernelIdeal.Body

end
-- ==== Proof.BodyRunLast.lean ====
/-
  The body at the last point: after the tile's stores the third branch is taken. It adds to the pooled head the
  product of the last 3600 columns of the pooling weights with rows [6400, 10000) of the mirror scratch, applies
  W_gᵀ, the bias, max with 0 and the row normalisation, and stores the result whole into the second output's window.
-/
import proofs.«101997_g44092134261233_cont_8to1_c_785_18_alg».proof.Proof.BodyRunPool

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the inputs' at their contents, the scratch buffers at what they hold, each
    buffer the case stores through at anything; it runs to the continuation with the inputs' as they were
    and each stored buffer with its pieces written (the pieces are what the run finds). -/
noncomputable def runLast (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole) (hc0 : ¬condFirst i) (hc1 : ¬condPool i) (hc2 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh : Vec F S10000x128 .f32) (xs : Vec F S10000x128 .f32) (xp : Vec F S64x128 .f32) :
    Σ' (L8 : List (View.Piece (Elt F) S400x128 .f32)), Σ' (L9 : List (View.Piece (Elt F) S64x128 .f32)), { LS : List (View.Piece (Elt F) S10000x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ (∃ d, owns (c : Thread nD τ) arg10 fullShare d)
            ∗ owns (c : Thread nD τ) arg11 fullShare xh
            ∗ owns (c : Thread nD τ) arg12 fullShare xs
            ∗ owns (c : Thread nD τ) arg13 fullShare xp
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ owns (c : Thread nD τ) arg11 fullShare xh
              ∗ (arg12.view.loc (c : Thread nD τ) ↦[arg12.view.set]{fullShare} arg12.view.writes (Elt F) (harg12.unread xs) LS)
              ∗ owns (c : Thread nD τ) arg13 fullShare xp) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fh, %hfh, HH⟩, ⟨%fs, %hfs, HS⟩, ⟨%fp, %hfp, HP⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfh; obtain rfl := harg12.eq_unread hfs; obtain rfl := harg13.eq_unread hfp
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HH]
    · iexists _; isplitr; · ipureintro; exact harg11.read_unread _
      iexact HH
    isplitl [HS]; · iexact HS
    iexists _; isplitr; · ipureintro; exact harg13.read_unread _
    iexact HP

end Cert.KernelIdeal.Body

end
-- ==== Proof.BodyFrame.lean ====
/-
  The frame of the kernel, with what it leaves in its two outputs named.

  The hidden layer h = max (X · W_inᵀ + b_in) 0 is computed once, at the first point, and kept in a scratch
  buffer. At point t the body multiplies rows [400·t, 400·t + 400) of the adjacency matrix by h and by W_gcn,
  takes max with 0, normalises each row, and stores the tile twice: into the first output's window (written back
  at every point, so the first output ends as the 25 tiles one above the other) and into the same rows of a
  second scratch buffer, the mirror. At point 16 rows [0, 6400) of the mirror are final and the body stores the
  product of the pooling weights' first 6400 columns with them into a third scratch; at the last point it adds
  the product of the remaining 3600 columns with rows [6400, 10000), applies W_gᵀ, b_g, max with 0 and the row
  normalisation, and stores the graph embedding into the second output's window, written back there only.

  So the invariant between points says: after the first point the hidden scratch holds h; after n points rows
  below 400·n of the mirror hold their tiles; after point 16 the third scratch holds the pooled head. The
  scratch buffers' other contents are whatever they were (existentially quantified), and nothing reads them.
-/
import proofs.«101997_g44092134261233_cont_8to1_c_785_18_alg».proof.Proof.BodyRunLast
import Idealize.ShloMosaic.Lib.WritesUnit
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## Loads through whole rectangles -/

theorem zeros2 : (![0, 0] : Fin 2 → ℕ) = fun _ => 0 := by funext a; fin_cases a <;> rfl
theorem zeros1 : (![0] : Fin 1 → ℕ) = fun _ => 0 := by funext a; fin_cases a; rfl

/-- A load of a whole memref through the rectangle of all of it reads the contents. -/
theorem load_whole {S : Shape} (a : Memref sig .tc .vmem S .f32) (ha : a.IsWhole) (x : Vec F S .f32)
    {off : Fin S.rank → ℕ} (hz : off = fun _ => 0) (inb : ∀ d, off d + S.size d ≤ S.size d) :
    View.readAt (Elt F) a.view (Rect.unit off S.size inb).toLoadRect (ha.unread x) = x := by
  rw [View.readAt_eq_ld, ha.read_unread]
  exact View.ld_unit_zero hz inb x

/-! ## The three special points -/

abbrev tFirst : Fin cfg0.N := ⟨0, by decide⟩
abbrev tPool : Fin cfg0.N := ⟨16, by decide⟩
abbrev tLast : Fin cfg0.N := ⟨24, by decide⟩

/-! ## What the kernel computes, from the launched arrays -/

/-- The hidden layer: the first branch's payload of the three resident inputs. -/
def hidV (c : Dev nD) : Vec F S10000x128 .f32 := k0_pay1 (iblk m c 2 tFirst) (iblk m c 3 tFirst) (iblk m c 4 tFirst)

/-- The tile of point `t`: the body's payload of the adjacency tile, the hidden layer and W_gcn. -/
def tileV (c : Dev nD) (t : Fin cfg0.N) : Vec F S400x128 .f32 := k0_pay2 (iblk m c 0 t) (hidV m c) (iblk m c 5 t)

theorem row_tile_lt (r : Fin 10000) : r.val / 400 < cfg0.N := by
  have h : cfg0.N = 25 := N_0
  have := r.isLt
  omega

/-- Row `r` of the tiles stacked: row `r % 400` of tile `r / 400`. -/
def mirrorAt (c : Dev nD) (r : Fin 10000) (q : Fin 128) : F .f32 :=
  tileV m c ⟨r.val / 400, row_tile_lt r⟩ (ix2 ⟨r.val % 400, Nat.mod_lt _ (by norm_num)⟩ q)

/-- The tiles stacked, as one array: what the first output and, row by row, the mirror end up holding. -/
def mirrorV (c : Dev nD) : Vec F S10000x128 .f32 := fun y => mirrorAt m c (y 0) (y 1)

/-- The pooled head: the second branch's payload of the pooling weights' first 6400 columns and the stack's first 6400 rows. -/
def poolV (c : Dev nD) : Vec F S64x128 .f32 :=
  k0_pay4 (View.ld (iblk m c 1 tPool) (Rect.unit (s := S64x10000) ![0, 0] S64x6400.size inb_S64x10000_S64x6400_0_0))
    (View.ld (mirrorV m c) (Rect.unit (s := S10000x128) ![0, 0] S6400x128.size inb_S10000x128_S6400x128_0_0))

/-- The graph embedding: the third branch's payload of the pooled head, the remaining 3600 columns and rows, W_g and b_g. -/
def finalV (c : Dev nD) : Vec F S64x128 .f32 :=
  k0_pay5 (poolV m c) (View.ld (iblk m c 1 tLast) (Rect.unit (s := S64x10000) ![0, 6400] S64x3600.size inb_S64x10000_S64x3600_0_6400))
    (View.ld (mirrorV m c) (Rect.unit (s := S10000x128) ![6400, 0] S3600x128.size inb_S10000x128_S3600x128_6400_0))
    (iblk m c 6 tLast) (iblk m c 7 tLast)

/-! ## The mirror after a tile store -/

/-- The mirror scratch (through any whole memref of it) after rows [400·i, 400·i + 400) are overwritten by `w`. -/
def mirrorNext (a : Memref sig .tc .vmem S10000x128 .f32) (ha : a.IsWhole) (i : grid0.Coords) (xs : Vec F S10000x128 .f32)
    (w : Vec F S400x128 .f32) : Vec F S10000x128 .f32 :=
  a.view.read (Elt F) (a.view.writes (Elt F) (ha.unread xs) [⟨Rect.unit (s := S10000x128) (k0_off1 i) S400x128.size (k0_off1_inb i), w⟩])

/-- Inside the stored rows it reads the tile, -/
theorem mirrorNext_in (a : Memref sig .tc .vmem S10000x128 .f32) (ha : a.IsWhole) (t : Fin cfg0.N) (xs : Vec F S10000x128 .f32)
    (w : Vec F S400x128 .f32) (p : Fin 400) (q : Fin 128) (r : Fin 10000) (hr : r.val = 400 * t.val + p.val) :
    mirrorNext a ha (grid0.coords t) xs w (ix2 r q) = w (ix2 p q) := by
  unfold mirrorNext
  exact View.read_writes_cons_rows_of_mem a.view (ha.unread xs) (k0_off1_inb _) w [] (ix2 r q) (ix2 p q) (off1_eq t) hr rfl

/-- outside them what was there. -/
theorem mirrorNext_out (a : Memref sig .tc .vmem S10000x128 .f32) (ha : a.IsWhole) (t : Fin cfg0.N) (xs : Vec F S10000x128 .f32)
    (w : Vec F S400x128 .f32) (q : Fin 128) (r : Fin 10000) (h : r.val < 400 * t.val ∨ 400 * t.val + 400 ≤ r.val) :
    mirrorNext a ha (grid0.coords t) xs w (ix2 r q) = xs (ix2 r q) := by
  unfold mirrorNext
  rw [View.read_writes_cons_rows_of_not_mem a.view (ha.unread xs) (k0_off1_inb _) w [] (ix2 r q) (off1_eq t) rfl h,
    View.writes_nil, ha.read_unread]

/-- The second store's payload is the first's: a shape cast to the same shape. -/
theorem pay3_eq (a : Vec F S400x10000 .f32) (b : Vec F S10000x128 .f32) (d : Vec F S128x128 .f32) : k0_pay3 a b d = k0_pay2 a b d := by
  unfold k0_pay3; exact shapeCast_self _ _

/-- One store through the whole rectangle leaves its payload, whatever was there. -/
theorem read_one_whole {S : Shape} (v : View sig .tc .vmem S .f32) (f : v.ty.Contents (Elt F)) {off : Fin S.rank → ℕ}
    (hz : off = fun _ => 0) (inb : ∀ d, off d + S.size d ≤ S.size d) (w : S.Idx → F .f32) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-! ## The pieces each case's run found, in closed form -/

section Pieces
variable (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (arg13 : Memref sig .tc .vmem S64x128 .f32) (harg13 : arg13.IsWhole)
  (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xh xs : Vec F S10000x128 .f32) (xp : Vec F S64x128 .f32)

theorem plain_out (hc0 : ¬condFirst i) (hc1 : ¬condPool i) (hc2 : ¬condLast i) :
    (runPlain c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).1 = [⟨Rect.unit ![0, 0] S400x128.size inb_S400x128_S400x128_0_0, k0_pay2 x0 xh x5⟩] := by
  unfold runPlain; dsimp only
  rw [load_whole arg1 harg1 x0 zeros2, load_whole arg11 harg11 xh zeros2, load_whole arg6 harg6 x5 zeros2]

theorem plain_mirror (hc0 : ¬condFirst i) (hc1 : ¬condPool i) (hc2 : ¬condLast i) :
    (runPlain c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).2.1 = [⟨Rect.unit (s := S10000x128) (k0_off1 i) S400x128.size (k0_off1_inb i), k0_pay3 x0 xh x5⟩] := by
  unfold runPlain; dsimp only
  rw [load_whole arg1 harg1 x0 zeros2, load_whole arg11 harg11 xh zeros2, load_whole arg6 harg6 x5 zeros2]

theorem first_out (hc0 : condFirst i) (hc1 : ¬condPool i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs xp).1 = [⟨Rect.unit ![0, 0] S400x128.size inb_S400x128_S400x128_0_0, k0_pay2 x0 (k0_pay1 x2 x3 x4) x5⟩] := by
  unfold runFirst; dsimp only; sl_unfold_words
  rw [View.readCov_unit_zero _ zeros2]
  rw [load_whole arg1 harg1 x0 zeros2, load_whole arg6 harg6 x5 zeros2, load_whole arg3 harg3 x2 zeros2, load_whole arg4 harg4 x3 zeros2, load_whole arg5 harg5 x4 zeros1]

theorem first_hid (hc0 : condFirst i) (hc1 : ¬condPool i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs xp).2.1 = [⟨Rect.unit ![0, 0] S10000x128.size inb_S10000x128_S10000x128_0_0, k0_pay1 x2 x3 x4⟩] := by
  unfold runFirst; dsimp only; sl_unfold_words
  rw [load_whole arg3 harg3 x2 zeros2, load_whole arg4 harg4 x3 zeros2, load_whole arg5 harg5 x4 zeros1]

theorem first_mirror (hc0 : condFirst i) (hc1 : ¬condPool i) (hc2 : ¬condLast i) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs xp).2.2.1 = [⟨Rect.unit (s := S10000x128) (k0_off1 i) S400x128.size (k0_off1_inb i), k0_pay3 x0 (k0_pay1 x2 x3 x4) x5⟩] := by
  unfold runFirst; dsimp only; sl_unfold_words
  rw [View.readCov_unit_zero _ zeros2]
  rw [load_whole arg1 harg1 x0 zeros2, load_whole arg6 harg6 x5 zeros2, load_whole arg3 harg3 x2 zeros2, load_whole arg4 harg4 x3 zeros2, load_whole arg5 harg5 x4 zeros1]

theorem pool_out (hc0 : ¬condFirst i) (hc1 : condPool i) (hc2 : ¬condLast i) :
    (runPool c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs).1 = [⟨Rect.unit ![0, 0] S400x128.size inb_S400x128_S400x128_0_0, k0_pay2 x0 xh x5⟩] := by
  unfold runPool; dsimp only; sl_unfold_words
  rw [load_whole arg1 harg1 x0 zeros2, load_whole arg11 harg11 xh zeros2, load_whole arg6 harg6 x5 zeros2]

theorem pool_pool (hc0 : ¬condFirst i) (hc1 : condPool i) (hc2 : ¬condLast i) :
    (runPool c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs).2.1 = [⟨Rect.unit ![0, 0] S64x128.size inb_S64x128_S64x128_0_0,
      k0_pay4 (View.ld x1 (Rect.unit (s := S64x10000) ![0, 0] S64x6400.size inb_S64x10000_S64x6400_0_0))
        (View.ld (mirrorNext arg12 harg12 i xs (k0_pay3 x0 xh x5)) (Rect.unit (s := S10000x128) ![0, 0] S6400x128.size inb_S10000x128_S6400x128_0_0))⟩] := by
  unfold runPool; dsimp only; sl_unfold_words
  rw [load_whole arg1 harg1 x0 zeros2, load_whole arg11 harg11 xh zeros2, load_whole arg6 harg6 x5 zeros2]
  simp only [View.readAt_eq_ld, harg2.read_unread]
  rfl

theorem pool_mirror (hc0 : ¬condFirst i) (hc1 : condPool i) (hc2 : ¬condLast i) :
    (runPool c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs).2.2.1 = [⟨Rect.unit (s := S10000x128) (k0_off1 i) S400x128.size (k0_off1_inb i), k0_pay3 x0 xh x5⟩] := by
  unfold runPool; dsimp only; sl_unfold_words
  rw [load_whole arg1 harg1 x0 zeros2, load_whole arg11 harg11 xh zeros2, load_whole arg6 harg6 x5 zeros2]

theorem last_out (hc0 : ¬condFirst i) (hc1 : ¬condPool i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).1 = [⟨Rect.unit ![0, 0] S400x128.size inb_S400x128_S400x128_0_0, k0_pay2 x0 xh x5⟩] := by
  unfold runLast; dsimp only; sl_unfold_words
  rw [load_whole arg1 harg1 x0 zeros2, load_whole arg11 harg11 xh zeros2, load_whole arg6 harg6 x5 zeros2]

theorem last_final (hc0 : ¬condFirst i) (hc1 : ¬condPool i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).2.1 = [⟨Rect.unit ![0, 0] S64x128.size inb_S64x128_S64x128_0_0,
      k0_pay5 xp (View.ld x1 (Rect.unit (s := S64x10000) ![0, 6400] S64x3600.size inb_S64x10000_S64x3600_0_6400))
        (View.ld (mirrorNext arg12 harg12 i xs (k0_pay3 x0 xh x5)) (Rect.unit (s := S10000x128) ![6400, 0] S3600x128.size inb_S10000x128_S3600x128_6400_0))
        x6 x7⟩] := by
  unfold runLast; dsimp only; sl_unfold_words
  rw [load_whole arg1 harg1 x0 zeros2, load_whole arg11 harg11 xh zeros2, load_whole arg6 harg6 x5 zeros2, load_whole arg13 harg13 xp zeros2, load_whole arg7 harg7 x6 zeros2, load_whole arg8 harg8 x7 zeros1]
  simp only [View.readAt_eq_ld, harg2.read_unread]
  rfl

theorem last_mirror (hc0 : ¬condFirst i) (hc1 : ¬condPool i) (hc2 : condLast i) :
    (runLast c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xh xs xp).2.2.1 = [⟨Rect.unit (s := S10000x128) (k0_off1 i) S400x128.size (k0_off1_inb i), k0_pay3 x0 xh x5⟩] := by
  unfold runLast; dsimp only; sl_unfold_words
  rw [load_whole arg1 harg1 x0 zeros2, load_whole arg11 harg11 xh zeros2, load_whole arg6 harg6 x5 zeros2]

end Pieces

/-! ## The invariant between points -/

/-- Rows below 400·n of the mirror hold their tiles. -/
def MirrorOk (c : Dev nD) (n : ℕ) (XS : Vec F S10000x128 .f32) : Prop :=
  ∀ y : S10000x128.Idx, (y 0).val < 400 * n → XS y = mirrorV m c y

theorem mirrorV_ix2 (c : Dev nD) (r : Fin 10000) (q : Fin 128) : mirrorV m c (ix2 r q) = mirrorAt m c r q := rfl

/-- Storing tile `t` into rows [400·t, 400·t + 400) extends the finished rows by one tile. -/
theorem mirror_step (c : Dev nD) (a : Memref sig .tc .vmem S10000x128 .f32) (ha : a.IsWhole) (t : Fin cfg0.N)
    (xs : Vec F S10000x128 .f32) (h : MirrorOk m c t.val xs) :
    MirrorOk m c (t.val + 1) (mirrorNext a ha (grid0.coords t) xs (tileV m c t)) := by
  intro y hy
  obtain ⟨r, q, rfl⟩ : ∃ (r : Fin 10000) (q : Fin 128), y = ix2 r q := ⟨y 0, y 1, eq_ix2 y⟩
  have hr : r.val < 400 * (t.val + 1) := hy
  by_cases hlt : r.val < 400 * t.val
  · rw [mirrorNext_out a ha t xs _ q r (Or.inl hlt)]; exact h (ix2 r q) hlt
  · rw [mirrorNext_in a ha t xs _ ⟨r.val - 400 * t.val, by omega⟩ q r (by show r.val = 400 * t.val + (r.val - 400 * t.val); omega), mirrorV_ix2]
    unfold mirrorAt
    have e1 : (⟨r.val / 400, row_tile_lt r⟩ : Fin cfg0.N) = t := Fin.ext (by show r.val / 400 = t.val; omega)
    have e2 : (⟨r.val % 400, Nat.mod_lt _ (by norm_num)⟩ : Fin 400) = ⟨r.val - 400 * t.val, by omega⟩ :=
      Fin.ext (by show r.val % 400 = r.val - 400 * t.val; omega)
    rw [e1, e2]

/-- Once 17 tiles are in, a load of rows [0, 6400) of the mirror reads the stack's; -/
theorem ld_mirror_head (c : Dev nD) (XS : Vec F S10000x128 .f32) (h : MirrorOk m c 17 XS) :
    View.ld XS (Rect.unit (s := S10000x128) ![0, 0] S6400x128.size inb_S10000x128_S6400x128_0_0)
      = View.ld (mirrorV m c) (Rect.unit (s := S10000x128) ![0, 0] S6400x128.size inb_S10000x128_S6400x128_0_0) := by
  funext x
  refine h _ ?_
  have h6 : (x 0).val < 6400 := (x 0).isLt
  show 0 + 1 * (x 0).val < 400 * 17
  omega

/-- once all 25 are, a load of rows [6400, 10000) does. -/
theorem ld_mirror_tail (c : Dev nD) (XS : Vec F S10000x128 .f32) (h : MirrorOk m c 25 XS) :
    View.ld XS (Rect.unit (s := S10000x128) ![6400, 0] S3600x128.size inb_S10000x128_S3600x128_6400_0)
      = View.ld (mirrorV m c) (Rect.unit (s := S10000x128) ![6400, 0] S3600x128.size inb_S10000x128_S3600x128_6400_0) := by
  funext x
  refine h _ ?_
  have h6 : (x 0).val < 3600 := (x 0).isLt
  show 6400 + 1 * (x 0).val < 400 * 25
  omega

/-- What is known of the three scratch buffers before point `n`. -/
def Inv (c : Dev nD) (n : ℕ) (XH XS : Vec F S10000x128 .f32) (XP : Vec F S64x128 .f32) : Prop :=
  (0 < n → XH = hidV m c) ∧ MirrorOk m c n XS ∧ (16 < n → XP = poolV m c)

/-- The region's invariant before point `n`: the scratch buffers at contents of which `Inv` holds, the generator register at some state. -/
def Phi (c : Dev nD) (n : ℕ) : sProp 𝕄 :=
  iprop(iprop(∃ XH XS XP, ⌜Inv m c n XH XS XP⌝ ∗ owns (c : Thread nD τ) scH fullShare XH ∗ owns (c : Thread nD τ) scS fullShare XS ∗ owns (c : Thread nD τ) scP fullShare XP) ∗ (∃ r, prngReg c r))

/-! ## The pipeline's proof data -/

/-- The arrays as the region finds them; after the body at point `t` each input's buffer at its block, the first
    output's at tile `t`, the second's at the graph embedding (stored at the last point only: elsewhere the window is idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tileV m c t
    | ⟨9, _⟩ => finalV m c
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = tileV m c t := by dsimp only [dats]
theorem after9 (c : Dev nD) (t : Fin cfg0.N) : (dats m 0 c).after 9 t = finalV m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point. The inputs' memrefs hold their blocks; which of the four cases the point is in is decided
    by the coordinate; the invariant hands the run the three scratch buffers (at what `Inv` says where the case
    reads them, at anything where it overwrites them whole) and takes them back with the hidden layer, the mirror
    one tile further and the pooled head as the next point needs them; each output's window ends at its named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, Phi_castSucc]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  by_cases h0 : t.val = 0
  · have ht : t = tFirst := Fin.ext h0
    have hc0 : condFirst (grid0.coords t) := (hcondFirst t).mpr h0
    have hc1 : ¬condPool (grid0.coords t) := fun h => absurd ((hcondPool t).mp h) (by omega)
    have hc2 : ¬condLast (grid0.coords t) := fun h => absurd ((hcondLast t).mp h) (by omega)
    rw [Dat.leavesExact_idle (dats m 0 c) 9 t (idleAt9 t hc2) (noFlush9 t hc2)]
    unfold Phi
    iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨hH, hM, hP⟩ := hinv
    have hM' := mirror_step m c scS (Memref.isWhole_whole _) t XS hM
    have hH1 : k0_pay1 (iblk m c 2 t) (iblk m c 3 t) (iblk m c 4 t) = hidV m c := by rw [ht]; rfl
    iapply ((runFirst c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) XS XP).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HH]; · iexists _; iexact HH
    isplitl [HS]; · iexact HS
    isplitl [HP]; · iexact HP
    iintro ⟨H0, H1, H2, H3, H4, H5, H6, H7, ⟨%f8, H8⟩, H9, ⟨%fh, HH⟩, HS, HP⟩
    isplitl [HH HS HP Hg]
    · isplitl [HH HS HP]
      · iexists (hidV m c); iexists (mirrorNext scS (Memref.isWhole_whole _) (grid0.coords t) XS (tileV m c t)); iexists XP
        isplitr
        · ipureintro; exact ⟨fun _ => rfl, hM', fun h => absurd h (by omega)⟩
        isplitl [HH]
        · unfold owns; iexists _; isplitr
          swap; · iexact HH
          ipureintro; rw [first_hid, read_one_whole _ _ zeros2, hH1]
        isplitl [HS]
        · unfold owns; iexists _; isplitr
          swap; · iexact HS
          ipureintro; rw [first_mirror, pay3_eq, hH1]; rfl
        iexact HP
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [first_out, read_one_whole _ _ zeros2, hH1]; rfl
    iexists _; iexact H9
  · have hc0 : ¬condFirst (grid0.coords t) := fun h => h0 ((hcondFirst t).mp h)
    by_cases h16 : t.val = 16
    · have ht : t = tPool := Fin.ext h16
      have hc1 : condPool (grid0.coords t) := (hcondPool t).mpr h16
      have hc2 : ¬condLast (grid0.coords t) := fun h => absurd ((hcondLast t).mp h) (by omega)
      rw [Dat.leavesExact_idle (dats m 0 c) 9 t (idleAt9 t hc2) (noFlush9 t hc2)]
      unfold Phi
      iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain ⟨hH, hM, hP⟩ := hinv
      have hXH := hH (by omega)
      subst hXH
      have hM' := mirror_step m c scS (Memref.isWhole_whole _) t XS hM
      iapply ((runPool c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidV m c) XS).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HH]; · iexact HH
      isplitl [HS]; · iexact HS
      isplitl [HP]; · iexists _; iexact HP
      iintro ⟨H0, H1, H2, H3, H4, H5, H6, H7, ⟨%f8, H8⟩, H9, HH, HS, ⟨%fp, HP⟩⟩
      isplitl [HH HS HP Hg]
      · isplitl [HH HS HP]
        · iexists (hidV m c); iexists (mirrorNext scS (Memref.isWhole_whole _) (grid0.coords t) XS (tileV m c t)); iexists (poolV m c)
          isplitr
          · ipureintro; exact ⟨fun _ => rfl, hM', fun _ => rfl⟩
          isplitl [HH]; · iexact HH
          isplitl [HS]
          · unfold owns; iexists _; isplitr
            swap; · iexact HS
            ipureintro; rw [pool_mirror, pay3_eq]; rfl
          unfold owns; iexists _; isplitr
          swap; · iexact HP
          ipureintro; rw [pool_pool, read_one_whole _ _ zeros2, pay3_eq]
          rw [show t.val + 1 = 17 from by omega] at hM'
          show k0_pay4 _ (View.ld (mirrorNext scS _ (grid0.coords t) XS (tileV m c t)) (Rect.unit (s := S10000x128) ![0, 0] S6400x128.size inb_S10000x128_S6400x128_0_0)) = poolV m c
          rw [ld_mirror_head m c _ hM', ht]; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; rw [pool_out, read_one_whole _ _ zeros2]; rfl
      iexists _; iexact H9
    · have hc1 : ¬condPool (grid0.coords t) := fun h => h16 ((hcondPool t).mp h)
      by_cases h24 : t.val = 24
      · have ht : t = tLast := Fin.ext h24
        have hc2 : condLast (grid0.coords t) := (hcondLast t).mpr h24
        rw [show (dats m 0 c).leavesExact 9 t = owns (c : Thread nD τ) (ms9 t) fullShare ((dats m 0 c).after 9 t) from by
          unfold Dat.leavesExact; rw [liveAt9 t hc2], after9]
        unfold Phi
        iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        obtain ⟨hH, hM, hP⟩ := hinv
        have hXH := hH (by omega)
        subst hXH
        have hXP := hP (by omega)
        subst hXP
        have hM' := mirror_step m c scS (Memref.isWhole_whole _) t XS hM
        iapply ((runLast c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidV m c) XS (poolV m c)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HH]; · iexact HH
        isplitl [HS]; · iexact HS
        isplitl [HP]; · iexact HP
        iintro ⟨H0, H1, H2, H3, H4, H5, H6, H7, ⟨%f8, H8⟩, ⟨%f9, H9⟩, HH, HS, HP⟩
        isplitl [HH HS HP Hg]
        · isplitl [HH HS HP]
          · iexists (hidV m c); iexists (mirrorNext scS (Memref.isWhole_whole _) (grid0.coords t) XS (tileV m c t)); iexists (poolV m c)
            isplitr
            · ipureintro; exact ⟨fun _ => rfl, hM', fun _ => rfl⟩
            isplitl [HH]; · iexact HH
            isplitl [HS]
            · unfold owns; iexists _; isplitr
              swap; · iexact HS
              ipureintro; rw [last_mirror, pay3_eq]; rfl
            iexact HP
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; rw [last_out, read_one_whole _ _ zeros2]; rfl
        unfold owns; iexists _; isplitr
        swap; · iexact H9
        ipureintro; rw [last_final, read_one_whole _ _ zeros2, pay3_eq]
        rw [show t.val + 1 = 25 from by omega] at hM'
        show k0_pay5 _ _ (View.ld (mirrorNext scS _ (grid0.coords t) XS (tileV m c t)) (Rect.unit (s := S10000x128) ![6400, 0] S3600x128.size inb_S10000x128_S3600x128_6400_0)) _ _ = finalV m c
        rw [ld_mirror_tail m c _ hM', ht]; rfl
      · have hc2 : ¬condLast (grid0.coords t) := fun h => h24 ((hcondLast t).mp h)
        rw [Dat.leavesExact_idle (dats m 0 c) 9 t (idleAt9 t hc2) (noFlush9 t hc2)]
        unfold Phi
        iintro ⟨⟨⟨%XH, %XS, %XP, %hinv, HH, HS, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        obtain ⟨hH, hM, hP⟩ := hinv
        have hXH := hH (by omega)
        subst hXH
        have hM' := mirror_step m c scS (Memref.isWhole_whole _) t XS hM
        iapply ((runPlain c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidV m c) XS XP).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HH]; · iexact HH
        isplitl [HS]; · iexact HS
        isplitl [HP]; · iexact HP
        iintro ⟨H0, H1, H2, H3, H4, H5, H6, H7, ⟨%f8, H8⟩, H9, HH, HS, HP⟩
        isplitl [HH HS HP Hg]
        · isplitl [HH HS HP]
          · iexists (hidV m c); iexists (mirrorNext scS (Memref.isWhole_whole _) (grid0.coords t) XS (tileV m c t)); iexists XP
            isplitr
            · ipureintro; exact ⟨fun _ => rfl, hM', fun h => hP (by omega)⟩
            isplitl [HH]; · iexact HH
            isplitl [HS]
            · unfold owns; iexists _; isplitr
              swap; · iexact HS
              ipureintro; rw [plain_mirror, pay3_eq]; rfl
            iexact HP
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; rw [plain_out, read_one_whole _ _ zeros2]; rfl
        iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch buffers. -/
theorem hin (c : Dev nD) : Pipeline.ΦA spec0 c ⊢ (dats m 0 c).Φ 0 := by
  rw [show (dats m 0 c).Φ 0 = Phi m c 0 from rfl, PhiA_eq]
  unfold Phi
  iintro ⟨⟨⟨%dh, HH⟩, ⟨%ds, HS⟩, ⟨%dp, HP⟩⟩, Hg⟩
  isplitl [HH HS HP]
  · iexists dh; iexists ds; iexists dp
    isplitr
    · ipureintro; exact ⟨fun h => absurd h (by omega), fun y hy => absurd hy (by omega), fun h => absurd h (by omega)⟩
    isplitl [HH]; · iexact HH
    isplitl [HS]; · iexact HS
    iexact HP
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%XH, %XS, %XP, %hinv, HH, HS, HP⟩, Hg⟩
  isplitl [HH HS HP]
  · isplitl [HH]; · iexists _; iexact HH
    isplitl [HS]; · iexists _; iexact HS
    iexists _; iexact HP
  iexact Hg

/-! ## The run and the frame -/

set_option backward.isDefEq.respectTransparency.types false in
/-- Every weakly fair execution of @main terminates, and every final state has each array of the pipeline at what the
    library computes from the proof data: the inputs unchanged, the outputs as written back block by block. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run ends with the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.Spec.lean ====
/-
  The graph encoder as functions of its inputs on the extended reals, row by row.

  With X the node features, A the adjacency rows, NB the pooling rows:
    hidden  h[r, c] = max (∑ k, X[r, k] · W_in[c, k] + b_in[c]) 0
    struct  s[r, ·] = normalize (max ((A[r, ·] · h) · W_gcn) 0)
    graph   g[b, ·] = normalize (max ((NB[b, ·] · s) · W_gᵀ + b_g) 0)
  where normalize v = v / max (sqrt (∑ c, v c · v c)) ε.  Every output row depends on ONE row of the
  left operand, so each stage is stated for a single row; a block of rows of the result is then the
  same function of the block of rows of the operand, whatever the block.
-/
import Idealize.ShloMosaic.PureOps.Ideal
import Idealize.ShloMosaic.Lib.ValueIdx

noncomputable section

namespace Cert.Encoder

open Idealize.ShloMosaic

/-- The word of `0.0`, left as the programs print it (both sides take `max` with the same word). -/
abbrev zeroW : EReal := Ideal.ofBits .f32 0x00000000#32
/-- The word of the normalisation floor, left as the programs print it. -/
abbrev epsW : EReal := Ideal.ofBits .f32 0x2B8CBCCC#32

/-- A row divided by the larger of its Euclidean norm and the floor. -/
def normalize (v : Fin 128 → EReal) (c : Fin 128) : EReal :=
  Ideal.div (v c) (max (Ideal.sqrt (∑ j : Fin 128, v j * v j)) epsW)

/-- One row of the hidden layer: `max (x · W_inᵀ + b_in) 0`. -/
def hiddenRow (x : Fin 128 → EReal) (Win : Fin 128 → Fin 128 → EReal) (bin : Fin 128 → EReal) (c : Fin 128) : EReal :=
  max ((∑ k : Fin 128, x k * Win c k) + bin c) zeroW

/-- One row of the structural embedding before normalisation: `max ((a · h) · W_gcn) 0`. -/
def structPre (a : Fin 10000 → EReal) (h : Fin 10000 → Fin 128 → EReal) (Wgcn : Fin 128 → Fin 128 → EReal) (c : Fin 128) : EReal :=
  max (∑ j : Fin 128, (∑ k : Fin 10000, a k * h k j) * Wgcn j c) zeroW

/-- One row of the structural embedding. -/
def structRow (a : Fin 10000 → EReal) (h : Fin 10000 → Fin 128 → EReal) (Wgcn : Fin 128 → Fin 128 → EReal) : Fin 128 → EReal :=
  normalize (structPre a h Wgcn)

/-- One row of the graph embedding before normalisation, from the pooled row `p`: `max (p · W_gᵀ + b_g) 0`. -/
def graphPre (p : Fin 128 → EReal) (Wg : Fin 128 → Fin 128 → EReal) (bg : Fin 128 → EReal) (c : Fin 128) : EReal :=
  max ((∑ j : Fin 128, p j * Wg c j) + bg c) zeroW

/-- One row of the graph embedding, from the pooled row. -/
def graphRow (p : Fin 128 → EReal) (Wg : Fin 128 → Fin 128 → EReal) (bg : Fin 128 → EReal) : Fin 128 → EReal :=
  normalize (graphPre p Wg bg)

section Whole

variable (A : Fin 10000 → Fin 10000 → EReal) (NB : Fin 64 → Fin 10000 → EReal) (X : Fin 10000 → Fin 128 → EReal)
  (Win : Fin 128 → Fin 128 → EReal) (bin : Fin 128 → EReal) (Wgcn Wg : Fin 128 → Fin 128 → EReal) (bg : Fin 128 → EReal)

/-- The hidden layer. -/
def hidden (r : Fin 10000) (c : Fin 128) : EReal := hiddenRow (X r) Win bin c

/-- The structural embedding: the first result. -/
def hstruct (r : Fin 10000) (c : Fin 128) : EReal := structRow (A r) (hidden X Win bin) Wgcn c

/-- A graph's pooled row: the pooling weights against the whole structural embedding. -/
def pooled (b : Fin 64) (j : Fin 128) : EReal := ∑ k : Fin 10000, NB b k * hstruct A X Win bin Wgcn k j

/-- The graph embedding: the second result. -/
def hgraph (b : Fin 64) (c : Fin 128) : EReal := graphRow (pooled A NB X Win bin Wgcn b) Wg bg c

end Whole

end Cert.Encoder

end
-- ==== Proof.PayloadAt.lean ====
/-
  The kernel body's five payloads read at one element.

  Each payload is a chain of matrix products into a zero accumulator, a bias row broadcast down the rows, a maximum
  with the zero word, and (for the two embeddings) the division of a row by the larger of its Euclidean norm and the
  floor.  Read at the element (r, c), a product is the sum over the contracted coordinate of the operands' products, a
  lane sum is the sum over the lane coordinate, and the keepdims column forms read the row's one value; what is left is
  the row functions of the specification, applied to the operands' rows.
-/
import proofs.«101997_g44092134261233_cont_8to1_c_785_18_alg».proof.Proof.Gen.KernelIdeal.Skeleton
import proofs.«101997_g44092134261233_cont_8to1_c_785_18_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx

open scoped BigOperators

/-! ## A matrix product into the zero accumulator, read at an element

One lemma per product of the body.  The product's element at (p, q) is the sum over the contraction index of the
operands' products; the contraction index has one axis, so the sum is re-indexed by that axis's coordinate, and the
operands' indices at (p, q) and k are read off the dimension numbers: the non-contracted axis carries the result's
coordinate, the contracted one carries k. -/

theorem dot_S10000x128_S128x128_S10000x128_1_1_0_0_n_n_lhs_non (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
theorem dot_S10000x128_S128x128_S10000x128_1_1_0_0_n_n_rhs_non (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl
/-- A product of a [10000, 128] matrix by the transpose of a [128, 128] matrix (both contracted along axis 1) into the zero
    accumulator, at (p, q): the sum over k of x (p, k) · y (q, k). -/
theorem mmT_10000x128_128x128 (x : FVec Ideal S10000x128 .f32) (y : FVec Ideal S128x128 .f32) (p : Fin 10000) (q : Fin 128) :
    matmul dot_S10000x128_S128x128_S10000x128_1_1_0_0_n_n none x y (constant (F := Ideal) S10000x128 .f32 0x00000000#32) (ix2 p q)
      = ∑ k : Fin 128, x (ix2 p k) * y (ix2 q k) := by
  refine (Ideal.matmul_constant_zero_apply dot_S10000x128_S128x128_S10000x128_1_1_0_0_n_n none x y (ix2 p q)).trans ?_
  rw [← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k :=
    funext fun a => Fin.ext (by
      match a with
      | ⟨0, _⟩ => exact dot_S10000x128_S128x128_S10000x128_1_1_0_0_n_n_lhs_non _ _
      | ⟨1, _⟩ => exact (dot_S10000x128_S128x128_S10000x128_1_1_0_0_n_n.lhsIdx_val_of_single rfl _ _).trans hk)
  have er : dot_S10000x128_S128x128_S10000x128_1_1_0_0_n_n.rhsIdx (ix2 p q) ((contrEquiv1 dot_S10000x128_S128x128_S10000x128_1_1_0_0_n_n 128 rfl rfl).symm k) = ix2 q k :=
    funext fun a => Fin.ext (by
      match a with
      | ⟨0, _⟩ => exact dot_S10000x128_S128x128_S10000x128_1_1_0_0_n_n_rhs_non _ _
      | ⟨1, _⟩ => exact (dot_S10000x128_S128x128_S10000x128_1_1_0_0_n_n.rhsIdx_val_of_single rfl _ _).trans hk)
  rw [el, er]

theorem dot_S400x10000_S10000x128_S400x128_1_0_0_1_n_n_lhs_non (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem dot_S400x10000_S10000x128_S400x128_1_0_0_1_n_n_rhs_non (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl
/-- A product of a [400, 10000] by a [10000, 128] matrix into the zero accumulator, at (p, q): the sum over k of x (p, k) · y (k, q). -/
theorem mm_400x10000_10000x128 (x : FVec Ideal S400x10000 .f32) (y : FVec Ideal S10000x128 .f32) (p : Fin 400) (q : Fin 128) :
    matmul dot_S400x10000_S10000x128_S400x128_1_0_0_1_n_n none x y (constant (F := Ideal) S400x128 .f32 0x00000000#32) (ix2 p q)
      = ∑ k : Fin 10000, x (ix2 p k) * y (ix2 k q) := by
  refine (Ideal.matmul_constant_zero_apply dot_S400x10000_S10000x128_S400x128_1_0_0_1_n_n none x y (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k :=
    funext fun a => Fin.ext (by
      match a with
      | ⟨0, _⟩ => exact dot_S400x10000_S10000x128_S400x128_1_0_0_1_n_n_lhs_non _ _
      | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((contrEquiv1 dot_S400x10000_S10000x128_S400x128_1_0_0_1_n_n 10000 rfl rfl).symm k) = ix2 k q :=
    funext fun a => Fin.ext (by
      match a with
      | ⟨0, _⟩ => exact (dot_S400x10000_S10000x128_S400x128_1_0_0_1_n_n.rhsIdx_val_of_single rfl _ _).trans hk
      | ⟨1, _⟩ => exact dot_S400x10000_S10000x128_S400x128_1_0_0_1_n_n_rhs_non _ _)
  rw [el, er]

theorem dot_S400x128_S128x128_S400x128_1_0_0_1_n_n_lhs_non (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem dot_S400x128_S128x128_S400x128_1_0_0_1_n_n_rhs_non (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl
/-- A product of a [400, 128] by a [128, 128] matrix into the zero accumulator, at (p, q): the sum over k of x (p, k) · y (k, q). -/
theorem mm_400x128_128x128 (x : FVec Ideal S400x128 .f32) (y : FVec Ideal S128x128 .f32) (p : Fin 400) (q : Fin 128) :
    matmul dot_S400x128_S128x128_S400x128_1_0_0_1_n_n none x y (constant (F := Ideal) S400x128 .f32 0x00000000#32) (ix2 p q)
      = ∑ k : Fin 128, x (ix2 p k) * y (ix2 k q) := by
  refine (Ideal.matmul_constant_zero_apply dot_S400x128_S128x128_S400x128_1_0_0_1_n_n none x y (ix2 p q)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k :=
    funext fun a => Fin.ext (by
      match a with
      | ⟨0, _⟩ => exact dot_S400x128_S128x128_S400x128_1_0_0_1_n_n_lhs_non _ _
      | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q :=
    funext fun a => Fin.ext (by
      match a with
      | ⟨0, _⟩ => exact (dot_S400x128_S128x128_S400x128_1_0_0_1_n_n.rhsIdx_val_of_single rfl _ _).trans hk
      | ⟨1, _⟩ => exact dot_S400x128_S128x128_S400x128_1_0_0_1_n_n_rhs_non _ _)
  rw [el, er]

theorem dot_S64x6400_S6400x128_S64x128_1_0_0_1_n_n_lhs_non (i : S64x128.Idx) (q : dot_S64x6400_S6400x128_S64x128_1_0_0_1_n_n.contr.Idx) :
    (dot_S64x6400_S6400x128_S64x128_1_0_0_1_n_n.lhsIdx i q 0).val = (i 0).val := by
  unfold DotDims.lhsIdx
  rw [dif_neg (show ¬(0 : Fin S64x6400.rank) ∈ dot_S64x6400_S6400x128_S64x128_1_0_0_1_n_n.lhsBatch by decide),
    dif_pos (show (0 : Fin S64x6400.rank) ∈ dot_S64x6400_S6400x128_S64x128_1_0_0_1_n_n.lhsNonContracting by decide)]
  rfl
theorem dot_S64x6400_S6400x128_S64x128_1_0_0_1_n_n_rhs_non (i : S64x128.Idx) (q : dot_S64x6400_S6400x128_S64x128_1_0_0_1_n_n.contr.Idx) :
    (dot_S64x6400_S6400x128_S64x128_1_0_0_1_n_n.rhsIdx i q 1).val = (i 1).val := by
  unfold DotDims.rhsIdx
  rw [dif_neg (show ¬(1 : Fin S6400x128.rank) ∈ dot_S64x6400_S6400x128_S64x128_1_0_0_1_n_n.rhsBatch by decide),
    dif_pos (show (1 : Fin S6400x128.rank) ∈ dot_S64x6400_S6400x128_S64x128_1_0_0_1_n_n.rhsNonContracting by decide)]
  rfl
/-- A product of a [64, 6400] by a [6400, 128] matrix into the zero accumulator, at (p, q): the sum over k of x (p, k) · y (k, q). -/
theorem mm_64x6400_6400x128 (x : FVec Ideal S64x6400 .f32) (y : FVec Ideal S6400x128 .f32) (p : Fin 64) (q : Fin 128) :
    matmul dot_S64x6400_S6400x128_S64x128_1_0_0_1_n_n none x y (constant (F := Ideal) S64x128 .f32 0x00000000#32) (ix2 p q)
      = ∑ k : Fin 6400, x (ix2 p k) * y (ix2 k q) := by
  refine (Ideal.matmul_constant_zero_apply dot_S64x6400_S6400x128_S64x128_1_0_0_1_n_n none x y (ix2 p q)).trans ?_
  rw [← Equiv.sum_comp (contrEquiv1 dot_S64x6400_S6400x128_S64x128_1_0_0_1_n_n 6400 rfl rfl).symm]
  refine Finset.sum_congr rfl fun k _ => ?_
  have hk := contrEquiv1_symm_val dot_S64x6400_S6400x128_S64x128_1_0_0_1_n_n 6400 rfl rfl k
  have el : dot_S64x6400_S6400x128_S64x128_1_0_0_1_n_n.lhsIdx (ix2 p q) ((contrEquiv1 dot_S64x6400_S6400x128_S64x128_1_0_0_1_n_n 6400 rfl rfl).symm k) = ix2 p k :=
    funext fun a => Fin.ext (by
      match a with
      | ⟨0, _⟩ => exact dot_S64x6400_S6400x128_S64x128_1_0_0_1_n_n_lhs_non _ _
      | ⟨1, _⟩ => exact (dot_S64x6400_S6400x128_S64x128_1_0_0_1_n_n.lhsIdx_val_of_single rfl _ _).trans hk)
  have er : dot_S64x6400_S6400x128_S64x128_1_0_0_1_n_n.rhsIdx (ix2 p q) ((contrEquiv1 dot_S64x6400_S6400x128_S64x128_1_0_0_1_n_n 6400 rfl rfl).symm k) = ix2 k q :=
    funext fun a => Fin.ext (by
      match a with
      | ⟨0, _⟩ => exact (dot_S64x6400_S6400x128_S64x128_1_0_0_1_n_n.rhsIdx_val_of_single rfl _ _).trans hk
      | ⟨1, _⟩ => exact dot_S64x6400_S6400x128_S64x128_1_0_0_1_n_n_rhs_non _ _)
  rw [el, er]

theorem dot_S64x3600_S3600x128_S64x128_1_0_0_1_n_n_lhs_non (i : S64x128.Idx) (q : dot_S64x3600_S3600x128_S64x128_1_0_0_1_n_n.contr.Idx) :
    (dot_S64x3600_S3600x128_S64x128_1_0_0_1_n_n.lhsIdx i q 0).val = (i 0).val := by
  unfold DotDims.lhsIdx
  rw [dif_neg (show ¬(0 : Fin S64x3600.rank) ∈ dot_S64x3600_S3600x128_S64x128_1_0_0_1_n_n.lhsBatch by decide),
    dif_pos (show (0 : Fin S64x3600.rank) ∈ dot_S64x3600_S3600x128_S64x128_1_0_0_1_n_n.lhsNonContracting by decide)]
  rfl
theorem dot_S64x3600_S3600x128_S64x128_1_0_0_1_n_n_rhs_non (i : S64x128.Idx) (q : dot_S64x3600_S3600x128_S64x128_1_0_0_1_n_n.contr.Idx) :
    (dot_S64x3600_S3600x128_S64x128_1_0_0_1_n_n.rhsIdx i q 1).val = (i 1).val := by
  unfold DotDims.rhsIdx
  rw [dif_neg (show ¬(1 : Fin S3600x128.rank) ∈ dot_S64x3600_S3600x128_S64x128_1_0_0_1_n_n.rhsBatch by decide),
    dif_pos (show (1 : Fin S3600x128.rank) ∈ dot_S64x3600_S3600x128_S64x128_1_0_0_1_n_n.rhsNonContracting by decide)]
  rfl
/-- A product of a [64, 3600] by a [3600, 128] matrix into the zero accumulator, at (p, q): the sum over k of x (p, k) · y (k, q). -/
theorem mm_64x3600_3600x128 (x : FVec Ideal S64x3600 .f32) (y : FVec Ideal S3600x128 .f32) (p : Fin 64) (q : Fin 128) :
    matmul dot_S64x3600_S3600x128_S64x128_1_0_0_1_n_n none x y (constant (F := Ideal) S64x128 .f32 0x00000000#32) (ix2 p q)
      = ∑ k : Fin 3600, x (ix2 p k) * y (ix2 k q) := by
  refine (Ideal.matmul_constant_zero_apply dot_S64x3600_S3600x128_S64x128_1_0_0_1_n_n none x y (ix2 p q)).trans ?_
  rw [← Equiv.sum_comp (contrEquiv1 dot_S64x3600_S3600x128_S64x128_1_0_0_1_n_n 3600 rfl rfl).symm]
  refine Finset.sum_congr rfl fun k _ => ?_
  have hk := contrEquiv1_symm_val dot_S64x3600_S3600x128_S64x128_1_0_0_1_n_n 3600 rfl rfl k
  have el : dot_S64x3600_S3600x128_S64x128_1_0_0_1_n_n.lhsIdx (ix2 p q) ((contrEquiv1 dot_S64x3600_S3600x128_S64x128_1_0_0_1_n_n 3600 rfl rfl).symm k) = ix2 p k :=
    funext fun a => Fin.ext (by
      match a with
      | ⟨0, _⟩ => exact dot_S64x3600_S3600x128_S64x128_1_0_0_1_n_n_lhs_non _ _
      | ⟨1, _⟩ => exact (dot_S64x3600_S3600x128_S64x128_1_0_0_1_n_n.lhsIdx_val_of_single rfl _ _).trans hk)
  have er : dot_S64x3600_S3600x128_S64x128_1_0_0_1_n_n.rhsIdx (ix2 p q) ((contrEquiv1 dot_S64x3600_S3600x128_S64x128_1_0_0_1_n_n 3600 rfl rfl).symm k) = ix2 k q :=
    funext fun a => Fin.ext (by
      match a with
      | ⟨0, _⟩ => exact (dot_S64x3600_S3600x128_S64x128_1_0_0_1_n_n.rhsIdx_val_of_single rfl _ _).trans hk
      | ⟨1, _⟩ => exact dot_S64x3600_S3600x128_S64x128_1_0_0_1_n_n_rhs_non _ _)
  rw [el, er]

theorem dot_S64x128_S128x128_S64x128_1_1_0_0_n_n_lhs_non (i : S64x128.Idx) (q : dot_S64x128_S128x128_S64x128_1_1_0_0_n_n.contr.Idx) :
    (dot_S64x128_S128x128_S64x128_1_1_0_0_n_n.lhsIdx i q 0).val = (i 0).val := by
  unfold DotDims.lhsIdx
  rw [dif_neg (show ¬(0 : Fin S64x128.rank) ∈ dot_S64x128_S128x128_S64x128_1_1_0_0_n_n.lhsBatch by decide),
    dif_pos (show (0 : Fin S64x128.rank) ∈ dot_S64x128_S128x128_S64x128_1_1_0_0_n_n.lhsNonContracting by decide)]
  rfl
theorem dot_S64x128_S128x128_S64x128_1_1_0_0_n_n_rhs_non (i : S64x128.Idx) (q : dot_S64x128_S128x128_S64x128_1_1_0_0_n_n.contr.Idx) :
    (dot_S64x128_S128x128_S64x128_1_1_0_0_n_n.rhsIdx i q 0).val = (i 1).val := by
  unfold DotDims.rhsIdx
  rw [dif_neg (show ¬(0 : Fin S128x128.rank) ∈ dot_S64x128_S128x128_S64x128_1_1_0_0_n_n.rhsBatch by decide),
    dif_pos (show (0 : Fin S128x128.rank) ∈ dot_S64x128_S128x128_S64x128_1_1_0_0_n_n.rhsNonContracting by decide)]
  rfl
/-- A product of a [64, 128] matrix by the transpose of a [128, 128] matrix (both contracted along axis 1) into the zero
    accumulator, at (p, q): the sum over k of x (p, k) · y (q, k). -/
theorem mmT_64x128_128x128 (x : FVec Ideal S64x128 .f32) (y : FVec Ideal S128x128 .f32) (p : Fin 64) (q : Fin 128) :
    matmul dot_S64x128_S128x128_S64x128_1_1_0_0_n_n none x y (constant (F := Ideal) S64x128 .f32 0x00000000#32) (ix2 p q)
      = ∑ k : Fin 128, x (ix2 p k) * y (ix2 q k) := by
  refine (Ideal.matmul_constant_zero_apply dot_S64x128_S128x128_S64x128_1_1_0_0_n_n none x y (ix2 p q)).trans ?_
  rw [← Equiv.sum_comp (contrEquiv1 dot_S64x128_S128x128_S64x128_1_1_0_0_n_n 128 rfl rfl).symm]
  refine Finset.sum_congr rfl fun k _ => ?_
  have hk := contrEquiv1_symm_val dot_S64x128_S128x128_S64x128_1_1_0_0_n_n 128 rfl rfl k
  have el : dot_S64x128_S128x128_S64x128_1_1_0_0_n_n.lhsIdx (ix2 p q) ((contrEquiv1 dot_S64x128_S128x128_S64x128_1_1_0_0_n_n 128 rfl rfl).symm k) = ix2 p k :=
    funext fun a => Fin.ext (by
      match a with
      | ⟨0, _⟩ => exact dot_S64x128_S128x128_S64x128_1_1_0_0_n_n_lhs_non _ _
      | ⟨1, _⟩ => exact (dot_S64x128_S128x128_S64x128_1_1_0_0_n_n.lhsIdx_val_of_single rfl _ _).trans hk)
  have er : dot_S64x128_S128x128_S64x128_1_1_0_0_n_n.rhsIdx (ix2 p q) ((contrEquiv1 dot_S64x128_S128x128_S64x128_1_1_0_0_n_n 128 rfl rfl).symm k) = ix2 q k :=
    funext fun a => Fin.ext (by
      match a with
      | ⟨0, _⟩ => exact dot_S64x128_S128x128_S64x128_1_1_0_0_n_n_rhs_non _ _
      | ⟨1, _⟩ => exact (dot_S64x128_S128x128_S64x128_1_1_0_0_n_n.rhsIdx_val_of_single rfl _ _).trans hk)
  rw [el, er]

/-! ## The keepdims column forms and the bias row -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one value in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` array cast to `[1, b]` and broadcast to `[a, b]` reads, at `(p, c)`, the operand at `c`. -/
theorem biasRow_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

end Layout

/-! ## The lane sum, and a row divided by the larger of its norm and the floor -/

/-- The sum over the lanes of an `[a, 128]` array, at `p`: the sum over `k` of the array at `(p, k)`. -/
theorem laneSum_apply {a : ℕ} (u : FVec Ideal ⟨2, ![a, 128]⟩ .f32)
    (hr : (⟨2, ![a, 128]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ u 0x00000000#32 hr hφ hacc (ix1 p) = ∑ k : Fin 128, u (ix2 p k) := by
  refine (Ideal.multiReduction_add_single u 0x00000000#32 hr hφ hacc (ix1 p)).trans ?_
  refine Finset.sum_congr rfl fun k _ => ?_
  exact congrArg u (funext fun c => Fin.ext (by match c with | ⟨0, _⟩ => rfl | ⟨1, _⟩ => rfl))

/-- The normalisation as the kernel writes it — the square root of the lane sum of squares as a column, its maximum with
    the floor, broadcast along the lanes, under the division — read at `(p, q)`: the row `p` normalised, at `q`. -/
theorem normTail_apply {a : ℕ} (u : FVec Ideal ⟨2, ![a, 128]⟩ .f32)
    (hr : (⟨2, ![a, 128]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 128]⟩)
    (p : Fin a) (q : Fin 128) :
    divf u (broadcastTo ⟨2, ![a, 128]⟩
        (maximumf (sqrt (shapeCast ⟨2, ![a, 1]⟩
            (multiReduction (F := Ideal) .add [1] ⟨1, ![a]⟩ (mulf u u) 0x00000000#32 hr hφ hacc) hc))
          (broadcast ⟨2, ![a, 1]⟩ (Scalar.ofBits (F := Ideal) .f32 0x2B8CBCCC#32))) hb) (ix2 p q)
      = Cert.Encoder.normalize (fun c => u (ix2 p c)) q := by
  unfold Cert.Encoder.normalize
  show Ideal.div (u (ix2 p q)) (broadcastTo ⟨2, ![a, 128]⟩ _ hb (ix2 p q))
    = Ideal.div (u (ix2 p q)) (max (Ideal.sqrt (∑ j : Fin 128, u (ix2 p j) * u (ix2 p j))) Cert.Encoder.epsW)
  refine congrArg (Ideal.div (u (ix2 p q))) ?_
  refine (broadcastTo_a1_ab_apply _ hb p q).trans ?_
  show max (Ideal.sqrt (shapeCast ⟨2, ![a, 1]⟩ _ hc (ix2 p (0 : Fin 1)))) (Ideal.ofBits .f32 0x2B8CBCCC#32) = _
  refine congrArg (fun z => max (Ideal.sqrt z) (Ideal.ofBits .f32 0x2B8CBCCC#32)) ?_
  refine (shapeCast_a_a1_apply _ hc p 0).trans ?_
  exact laneSum_apply (mulf u u) hr hφ hacc p

/-! ## The five payloads -/

/-- The hidden layer's block before its (same-shape) cast: `max (X · W_inᵀ + b_in) 0`. -/
def pre1 (v30 : FVec Ideal S10000x128 .f32) (v31 : FVec Ideal S128x128 .f32) (v33 : FVec Ideal S128 .f32) :
    FVec Ideal S10000x128 .f32 :=
  maximumf
    (addf (matmul (φ₁ := .f32) (φ₂ := .f32) dot_S10000x128_S128x128_S10000x128_1_1_0_0_n_n none v30 v31 (constant S10000x128 .f32 0x00000000#32))
      (broadcastTo S10000x128 (shapeCast S1x128 v33 shapeCasts_S128_S1x128) broadcasts_S1x128_S10000x128))
    (broadcast S10000x128 (Scalar.ofBits .f32 0x00000000#32))

theorem pay1_eq (v30 : Vec Ideal S10000x128 .f32) (v31 : Vec Ideal S128x128 .f32) (v33 : Vec Ideal S128 .f32) :
    k0_pay1 (F := Ideal) v30 v31 v33 = shapeCast S10000x128 (pre1 v30 v31 v33) shapeCasts_S10000x128_S10000x128 := rfl

/-- The first payload at (r, c): row r of the hidden layer, at c. -/
theorem pay1_at (v30 : Vec Ideal S10000x128 .f32) (v31 : Vec Ideal S128x128 .f32) (v33 : Vec Ideal S128 .f32)
    (r : Fin 10000) (c : Fin 128) :
    k0_pay1 (F := Ideal) v30 v31 v33 (ix2 r c)
      = Cert.Encoder.hiddenRow (fun k => v30 (ix2 r k)) (fun c k => v31 (ix2 c k)) (fun c => v33 (ix1 c)) c := by
  rw [pay1_eq, shapeCast_self]
  unfold Cert.Encoder.hiddenRow
  show max (matmul (φ₁ := .f32) (φ₂ := .f32) dot_S10000x128_S128x128_S10000x128_1_1_0_0_n_n none v30 v31 (constant (F := Ideal) S10000x128 .f32 0x00000000#32) (ix2 r c)
      + broadcastTo S10000x128 (shapeCast S1x128 v33 shapeCasts_S128_S1x128) broadcasts_S1x128_S10000x128 (ix2 r c))
    (Ideal.ofBits .f32 0x00000000#32) = _
  rw [mmT_10000x128_128x128, biasRow_apply]

/-- The structural block before normalisation: `max ((A · h) · W_gcn) 0`. -/
def pre2 (v3 : FVec Ideal S400x10000 .f32) (v4 : FVec Ideal S10000x128 .f32) (v6 : FVec Ideal S128x128 .f32) :
    FVec Ideal S400x128 .f32 :=
  maximumf
    (matmul (φ₁ := .f32) (φ₂ := .f32) dot_S400x128_S128x128_S400x128_1_0_0_1_n_n none
      (matmul (φ₁ := .f32) (φ₂ := .f32) dot_S400x10000_S10000x128_S400x128_1_0_0_1_n_n none v3 v4 (constant S400x128 .f32 0x00000000#32))
      v6 (constant S400x128 .f32 0x00000000#32))
    (broadcast S400x128 (Scalar.ofBits .f32 0x00000000#32))

theorem pay2_eq (v3 : Vec Ideal S400x10000 .f32) (v4 : Vec Ideal S10000x128 .f32) (v6 : Vec Ideal S128x128 .f32) :
    k0_pay2 (F := Ideal) v3 v4 v6
      = divf (pre2 v3 v4 v6) (broadcastTo S400x128
          (maximumf (sqrt (shapeCast S400x1
              (multiReduction (F := Ideal) .add [1] S400 (mulf (pre2 v3 v4 v6) (pre2 v3 v4 v6)) 0x00000000#32
                reduces_S400x128_S400 (.inl rfl) rfl) shapeCasts_S400_S400x1))
            (broadcast S400x1 (Scalar.ofBits (F := Ideal) .f32 0x2B8CBCCC#32))) broadcasts_S400x1_S400x128) := rfl

theorem pre2_at (v3 : Vec Ideal S400x10000 .f32) (v4 : Vec Ideal S10000x128 .f32) (v6 : Vec Ideal S128x128 .f32)
    (p : Fin 400) (c : Fin 128) :
    pre2 v3 v4 v6 (ix2 p c)
      = Cert.Encoder.structPre (fun k => v3 (ix2 p k)) (fun k j => v4 (ix2 k j)) (fun j c => v6 (ix2 j c)) c := by
  unfold Cert.Encoder.structPre
  show max (matmul (φ₁ := .f32) (φ₂ := .f32) dot_S400x128_S128x128_S400x128_1_0_0_1_n_n none
      (matmul (φ₁ := .f32) (φ₂ := .f32) dot_S400x10000_S10000x128_S400x128_1_0_0_1_n_n none v3 v4 (constant (F := Ideal) S400x128 .f32 0x00000000#32))
      v6 (constant (F := Ideal) S400x128 .f32 0x00000000#32) (ix2 p c)) (Ideal.ofBits .f32 0x00000000#32) = _
  rw [mm_400x128_128x128]
  refine congrArg (fun z => max z Cert.Encoder.zeroW) (Finset.sum_congr rfl fun j _ => ?_)
  rw [mm_400x10000_10000x128]

/-- The second payload at (p, q): row p of the structural embedding, at q. -/
theorem pay2_at (v3 : Vec Ideal S400x10000 .f32) (v4 : Vec Ideal S10000x128 .f32) (v6 : Vec Ideal S128x128 .f32)
    (p : Fin 400) (q : Fin 128) :
    k0_pay2 (F := Ideal) v3 v4 v6 (ix2 p q)
      = Cert.Encoder.structRow (fun k => v3 (ix2 p k)) (fun k j => v4 (ix2 k j)) (fun j c => v6 (ix2 j c)) q := by
  rw [pay2_eq]
  refine (normTail_apply (pre2 v3 v4 v6) reduces_S400x128_S400 (.inl rfl) rfl shapeCasts_S400_S400x1
    broadcasts_S400x1_S400x128 p q).trans ?_
  unfold Cert.Encoder.structRow
  exact congrArg (fun f => Cert.Encoder.normalize f q) (funext fun c => pre2_at v3 v4 v6 p c)

/-- The third payload is the second under a cast to its own shape. -/
theorem pay3_at (v3 : Vec Ideal S400x10000 .f32) (v4 : Vec Ideal S10000x128 .f32) (v6 : Vec Ideal S128x128 .f32)
    (p : Fin 400) (q : Fin 128) :
    k0_pay3 (F := Ideal) v3 v4 v6 (ix2 p q)
      = Cert.Encoder.structRow (fun k => v3 (ix2 p k)) (fun k j => v4 (ix2 k j)) (fun j c => v6 (ix2 j c)) q := by
  show shapeCast S400x128 (k0_pay2 (F := Ideal) v3 v4 v6) shapeCasts_S400x128_S400x128 (ix2 p q) = _
  rw [shapeCast_self]
  exact pay2_at v3 v4 v6 p q

/-- The fourth payload at (b, c): the pooling rows' first 6400 columns against the first 6400 rows of the structural
    embedding. -/
theorem pay4_at (v30 : Vec Ideal S64x6400 .f32) (v31 : Vec Ideal S6400x128 .f32) (b : Fin 64) (c : Fin 128) :
    k0_pay4 (F := Ideal) v30 v31 (ix2 b c) = ∑ k : Fin 6400, v30 (ix2 b k) * v31 (ix2 k c) := by
  show shapeCast S64x128 (matmul (φ₁ := .f32) (φ₂ := .f32) dot_S64x6400_S6400x128_S64x128_1_0_0_1_n_n none v30 v31
    (constant (F := Ideal) S64x128 .f32 0x00000000#32)) shapeCasts_S64x128_S64x128 (ix2 b c) = _
  rw [shapeCast_self]
  exact mm_64x6400_6400x128 v30 v31 b c

/-- The graph block before normalisation: `max ((P₀ + NB₁ · s₁) · W_gᵀ + b_g) 0`, with P₀ the partial pooled rows. -/
def pre5 (v30 : FVec Ideal S64x128 .f32) (v31 : FVec Ideal S64x3600 .f32) (v32 : FVec Ideal S3600x128 .f32)
    (v35 : FVec Ideal S128x128 .f32) (v37 : FVec Ideal S128 .f32) : FVec Ideal S64x128 .f32 :=
  maximumf
    (addf (matmul (φ₁ := .f32) (φ₂ := .f32) dot_S64x128_S128x128_S64x128_1_1_0_0_n_n none
        (addf v30 (matmul (φ₁ := .f32) (φ₂ := .f32) dot_S64x3600_S3600x128_S64x128_1_0_0_1_n_n none v31 v32 (constant S64x128 .f32 0x00000000#32)))
        v35 (constant S64x128 .f32 0x00000000#32))
      (broadcastTo S64x128 (shapeCast S1x128 v37 shapeCasts_S128_S1x128) broadcasts_S1x128_S64x128))
    (broadcast S64x128 (Scalar.ofBits .f32 0x00000000#32))

theorem pay5_eq (v30 : Vec Ideal S64x128 .f32) (v31 : Vec Ideal S64x3600 .f32) (v32 : Vec Ideal S3600x128 .f32)
    (v35 : Vec Ideal S128x128 .f32) (v37 : Vec Ideal S128 .f32) :
    k0_pay5 (F := Ideal) v30 v31 v32 v35 v37
      = divf (pre5 v30 v31 v32 v35 v37) (broadcastTo S64x128
          (maximumf (sqrt (shapeCast S64x1
              (multiReduction (F := Ideal) .add [1] S64 (mulf (pre5 v30 v31 v32 v35 v37) (pre5 v30 v31 v32 v35 v37)) 0x00000000#32
                reduces_S64x128_S64 (.inl rfl) rfl) shapeCasts_S64_S64x1))
            (broadcast S64x1 (Scalar.ofBits (F := Ideal) .f32 0x2B8CBCCC#32))) broadcasts_S64x1_S64x128) := rfl

theorem pre5_at (v30 : Vec Ideal S64x128 .f32) (v31 : Vec Ideal S64x3600 .f32) (v32 : Vec Ideal S3600x128 .f32)
    (v35 : Vec Ideal S128x128 .f32) (v37 : Vec Ideal S128 .f32) (b : Fin 64) (c : Fin 128) :
    pre5 v30 v31 v32 v35 v37 (ix2 b c)
      = Cert.Encoder.graphPre (fun j => v30 (ix2 b j) + ∑ k : Fin 3600, v31 (ix2 b k) * v32 (ix2 k j))
          (fun c j => v35 (ix2 c j)) (fun c => v37 (ix1 c)) c := by
  unfold Cert.Encoder.graphPre
  show max (matmul (φ₁ := .f32) (φ₂ := .f32) dot_S64x128_S128x128_S64x128_1_1_0_0_n_n none
        (addf v30 (matmul (φ₁ := .f32) (φ₂ := .f32) dot_S64x3600_S3600x128_S64x128_1_0_0_1_n_n none v31 v32 (constant (F := Ideal) S64x128 .f32 0x00000000#32)))
        v35 (constant (F := Ideal) S64x128 .f32 0x00000000#32) (ix2 b c)
      + broadcastTo S64x128 (shapeCast S1x128 v37 shapeCasts_S128_S1x128) broadcasts_S1x128_S64x128 (ix2 b c))
    (Ideal.ofBits .f32 0x00000000#32) = _
  rw [mmT_64x128_128x128, biasRow_apply]
  refine congrArg (fun z => max (z + v37 (ix1 c)) Cert.Encoder.zeroW) (Finset.sum_congr rfl fun j _ => ?_)
  show (v30 (ix2 b j) + matmul (φ₁ := .f32) (φ₂ := .f32) dot_S64x3600_S3600x128_S64x128_1_0_0_1_n_n none v31 v32
    (constant (F := Ideal) S64x128 .f32 0x00000000#32) (ix2 b j)) * v35 (ix2 c j) = _
  rw [mm_64x3600_3600x128]

/-- The fifth payload at (b, c): row b of the graph embedding, from the pooled row completed by the last 3600 columns. -/
theorem pay5_at (v30 : Vec Ideal S64x128 .f32) (v31 : Vec Ideal S64x3600 .f32) (v32 : Vec Ideal S3600x128 .f32)
    (v35 : Vec Ideal S128x128 .f32) (v37 : Vec Ideal S128 .f32) (b : Fin 64) (c : Fin 128) :
    k0_pay5 (F := Ideal) v30 v31 v32 v35 v37 (ix2 b c)
      = Cert.Encoder.graphRow (fun j => v30 (ix2 b j) + ∑ k : Fin 3600, v31 (ix2 b k) * v32 (ix2 k j))
          (fun c j => v35 (ix2 c j)) (fun c => v37 (ix1 c)) c := by
  rw [pay5_eq]
  refine (normTail_apply (pre5 v30 v31 v32 v35 v37) reduces_S64x128_S64 (.inl rfl) rfl shapeCasts_S64_S64x1
    broadcasts_S64x1_S64x128 b c).trans ?_
  unfold Cert.Encoder.graphRow
  exact congrArg (fun f => Cert.Encoder.normalize f c) (funext fun c' => pre5_at v30 v31 v32 v35 v37 b c')

end Cert.KernelIdeal.PayloadAt

end
-- ==== Proof.KernelValue.lean ====
/-
  What the kernel's two results hold, as the encoder's functions of the argument arrays (at the extended reals).

  The frame run names the first output's array as the 25 tiles written back one above the other, and the second
  output's as what the last point stored. Here each is read at an index: an input window's block is the rows of its
  array the grid point names (for the seven resident windows, the array); the hidden-layer scratch is the hidden
  layer of the feature rows; tile t's row p is the structural embedding of adjacency row 400·t + p, so the stacked
  tiles are the structural embedding of every row; the pooled head is the pooling sum over k < 6400, the last point
  adds the sum over 6400 ≤ k < 10000, and the two make the whole pooling sum (a sum over Fin 10000 split at 6400,
  no finiteness needed: the extended reals are a commutative monoid under +); the rest of the last point is the
  graph row's own formula.
-/
import proofs.«101997_g44092134261233_cont_8to1_c_785_18_alg».proof.Proof.BodyFrame
import proofs.«101997_g44092134261233_cont_8to1_c_785_18_alg».proof.Proof.PayloadAt
import proofs.«101997_g44092134261233_cont_8to1_c_785_18_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EncValue

open Cert.KernelIdeal Cert.KernelIdeal.Gen Cert.KernelIdeal.Body Cert.KernelIdeal.PayloadAt

/-! ## An input window's block is rows of its array -/

section Blocks
variable {F : FTy → Type} [FloatOps F]
variable (m : (ℓ : Loc nD τ sig) → Buf (Elt F) ℓ)

theorem idx0 : ∀ t : Fin cfg0.N, win0_0.index t 0 = t.val ∧ win0_0.index t 1 = 0 :=
  (by decide +kernel : ∀ t : Fin grid0.N, win0_0.index t 0 = t.val ∧ win0_0.index t 1 = 0)

theorem iblk0_apply (c : Dev nD) (t : Fin cfg0.N) (x : S400x10000.Idx) (k : S10000x10000.Idx) (hk0 : (k 0).val = 400 * t.val + (x 0).val) (hk1 : (k 1).val = (x 1).val) :
    (iblk m c 0 t : Vec F S400x10000 .f32) x = (m ((c : Thread nD τ).loc main_arg0) : S10000x10000.Idx → Elt F .f32) k := by
  have hi := idx0 t
  unfold iblk
  rw [View.read_apply]
  show V m c main_arg0 _ = m (c.tc.loc main_arg0) _
  unfold V
  congr 1
  funext a
  apply Fin.ext
  match a with
  | ⟨0, _⟩ => show win0_0.index t 0 * 400 + 1 * (x 0).val = (k 0).val; rw [hi.1, hk0]; omega
  | ⟨1, _⟩ => show win0_0.index t 1 * 10000 + 1 * (x 1).val = (k 1).val; rw [hi.2, hk1]; omega

theorem idx1 : ∀ t : Fin cfg0.N, win0_1.index t 0 = 0 ∧ win0_1.index t 1 = 0 :=
  (by decide +kernel : ∀ t : Fin grid0.N, win0_1.index t 0 = 0 ∧ win0_1.index t 1 = 0)

theorem iblk1_apply (c : Dev nD) (t : Fin cfg0.N) (x : S64x10000.Idx) (k : S64x10000.Idx) (hk0 : (k 0).val = (x 0).val) (hk1 : (k 1).val = (x 1).val) :
    (iblk m c 1 t : Vec F S64x10000 .f32) x = (m ((c : Thread nD τ).loc main_arg1) : S64x10000.Idx → Elt F .f32) k := by
  have hi := idx1 t
  unfold iblk
  rw [View.read_apply]
  show V m c main_arg1 _ = m (c.tc.loc main_arg1) _
  unfold V
  congr 1
  funext a
  apply Fin.ext
  match a with
  | ⟨0, _⟩ => show win0_1.index t 0 * 64 + 1 * (x 0).val = (k 0).val; rw [hi.1, hk0]; omega
  | ⟨1, _⟩ => show win0_1.index t 1 * 10000 + 1 * (x 1).val = (k 1).val; rw [hi.2, hk1]; omega

theorem idx2 : ∀ t : Fin cfg0.N, win0_2.index t 0 = 0 ∧ win0_2.index t 1 = 0 :=
  (by decide +kernel : ∀ t : Fin grid0.N, win0_2.index t 0 = 0 ∧ win0_2.index t 1 = 0)

theorem iblk2_apply (c : Dev nD) (t : Fin cfg0.N) (x : S10000x128.Idx) (k : S10000x128.Idx) (hk0 : (k 0).val = (x 0).val) (hk1 : (k 1).val = (x 1).val) :
    (iblk m c 2 t : Vec F S10000x128 .f32) x = (m ((c : Thread nD τ).loc main_arg2) : S10000x128.Idx → Elt F .f32) k := by
  have hi := idx2 t
  unfold iblk
  rw [View.read_apply]
  show V m c main_arg2 _ = m (c.tc.loc main_arg2) _
  unfold V
  congr 1
  funext a
  apply Fin.ext
  match a with
  | ⟨0, _⟩ => show win0_2.index t 0 * 10000 + 1 * (x 0).val = (k 0).val; rw [hi.1, hk0]; omega
  | ⟨1, _⟩ => show win0_2.index t 1 * 128 + 1 * (x 1).val = (k 1).val; rw [hi.2, hk1]; omega

theorem idx3 : ∀ t : Fin cfg0.N, win0_3.index t 0 = 0 ∧ win0_3.index t 1 = 0 :=
  (by decide +kernel : ∀ t : Fin grid0.N, win0_3.index t 0 = 0 ∧ win0_3.index t 1 = 0)

theorem iblk3_apply (c : Dev nD) (t : Fin cfg0.N) (x : S128x128.Idx) (k : S128x128.Idx) (hk0 : (k 0).val = (x 0).val) (hk1 : (k 1).val = (x 1).val) :
    (iblk m c 3 t : Vec F S128x128 .f32) x = (m ((c : Thread nD τ).loc main_arg3) : S128x128.Idx → Elt F .f32) k := by
  have hi := idx3 t
  unfold iblk
  rw [View.read_apply]
  show V m c main_arg3 _ = m (c.tc.loc main_arg3) _
  unfold V
  congr 1
  funext a
  apply Fin.ext
  match a with
  | ⟨0, _⟩ => show win0_3.index t 0 * 128 + 1 * (x 0).val = (k 0).val; rw [hi.1, hk0]; omega
  | ⟨1, _⟩ => show win0_3.index t 1 * 128 + 1 * (x 1).val = (k 1).val; rw [hi.2, hk1]; omega

theorem idx4 : ∀ t : Fin cfg0.N, win0_4.index t 0 = 0 :=
  (by decide +kernel : ∀ t : Fin grid0.N, win0_4.index t 0 = 0)

theorem iblk4_apply (c : Dev nD) (t : Fin cfg0.N) (x : S128.Idx) (k : S128.Idx) (hk0 : (k 0).val = (x 0).val) :
    (iblk m c 4 t : Vec F S128 .f32) x = (m ((c : Thread nD τ).loc main_arg4) : S128.Idx → Elt F .f32) k := by
  have hi := idx4 t
  unfold iblk
  rw [View.read_apply]
  show V m c main_arg4 _ = m (c.tc.loc main_arg4) _
  unfold V
  congr 1
  funext a
  apply Fin.ext
  match a with
  | ⟨0, _⟩ => show win0_4.index t 0 * 128 + 1 * (x 0).val = (k 0).val; rw [hi, hk0]; omega

theorem idx5 : ∀ t : Fin cfg0.N, win0_5.index t 0 = 0 ∧ win0_5.index t 1 = 0 :=
  (by decide +kernel : ∀ t : Fin grid0.N, win0_5.index t 0 = 0 ∧ win0_5.index t 1 = 0)

theorem iblk5_apply (c : Dev nD) (t : Fin cfg0.N) (x : S128x128.Idx) (k : S128x128.Idx) (hk0 : (k 0).val = (x 0).val) (hk1 : (k 1).val = (x 1).val) :
    (iblk m c 5 t : Vec F S128x128 .f32) x = (m ((c : Thread nD τ).loc main_arg5) : S128x128.Idx → Elt F .f32) k := by
  have hi := idx5 t
  unfold iblk
  rw [View.read_apply]
  show V m c main_arg5 _ = m (c.tc.loc main_arg5) _
  unfold V
  congr 1
  funext a
  apply Fin.ext
  match a with
  | ⟨0, _⟩ => show win0_5.index t 0 * 128 + 1 * (x 0).val = (k 0).val; rw [hi.1, hk0]; omega
  | ⟨1, _⟩ => show win0_5.index t 1 * 128 + 1 * (x 1).val = (k 1).val; rw [hi.2, hk1]; omega

theorem idx6 : ∀ t : Fin cfg0.N, win0_6.index t 0 = 0 ∧ win0_6.index t 1 = 0 :=
  (by decide +kernel : ∀ t : Fin grid0.N, win0_6.index t 0 = 0 ∧ win0_6.index t 1 = 0)

theorem iblk6_apply (c : Dev nD) (t : Fin cfg0.N) (x : S128x128.Idx) (k : S128x128.Idx) (hk0 : (k 0).val = (x 0).val) (hk1 : (k 1).val = (x 1).val) :
    (iblk m c 6 t : Vec F S128x128 .f32) x = (m ((c : Thread nD τ).loc main_arg6) : S128x128.Idx → Elt F .f32) k := by
  have hi := idx6 t
  unfold iblk
  rw [View.read_apply]
  show V m c main_arg6 _ = m (c.tc.loc main_arg6) _
  unfold V
  congr 1
  funext a
  apply Fin.ext
  match a with
  | ⟨0, _⟩ => show win0_6.index t 0 * 128 + 1 * (x 0).val = (k 0).val; rw [hi.1, hk0]; omega
  | ⟨1, _⟩ => show win0_6.index t 1 * 128 + 1 * (x 1).val = (k 1).val; rw [hi.2, hk1]; omega

theorem idx7 : ∀ t : Fin cfg0.N, win0_7.index t 0 = 0 :=
  (by decide +kernel : ∀ t : Fin grid0.N, win0_7.index t 0 = 0)

theorem iblk7_apply (c : Dev nD) (t : Fin cfg0.N) (x : S128.Idx) (k : S128.Idx) (hk0 : (k 0).val = (x 0).val) :
    (iblk m c 7 t : Vec F S128 .f32) x = (m ((c : Thread nD τ).loc main_arg7) : S128.Idx → Elt F .f32) k := by
  have hi := idx7 t
  unfold iblk
  rw [View.read_apply]
  show V m c main_arg7 _ = m (c.tc.loc main_arg7) _
  unfold V
  congr 1
  funext a
  apply Fin.ext
  match a with
  | ⟨0, _⟩ => show win0_7.index t 0 * 128 + 1 * (x 0).val = (k 0).val; rw [hi, hk0]; omega

end Blocks

variable (m : (ℓ : Loc nD τ sig) → Buf (Elt Ideal) ℓ) (ρ : Dev nD → PrngReg)

/-! ## The argument arrays as the specification takes them -/

abbrev aA (c : Dev nD) : Fin 10000 → Fin 10000 → EReal := fun r k => (m ((c : Thread nD τ).loc main_arg0) : S10000x10000.Idx → EReal) (ix2 r k)
abbrev aNB (c : Dev nD) : Fin 64 → Fin 10000 → EReal := fun b k => (m ((c : Thread nD τ).loc main_arg1) : S64x10000.Idx → EReal) (ix2 b k)
abbrev aX (c : Dev nD) : Fin 10000 → Fin 128 → EReal := fun r k => (m ((c : Thread nD τ).loc main_arg2) : S10000x128.Idx → EReal) (ix2 r k)
abbrev aWin (c : Dev nD) : Fin 128 → Fin 128 → EReal := fun j k => (m ((c : Thread nD τ).loc main_arg3) : S128x128.Idx → EReal) (ix2 j k)
abbrev abin (c : Dev nD) : Fin 128 → EReal := fun j => (m ((c : Thread nD τ).loc main_arg4) : S128.Idx → EReal) (ix1 j)
abbrev aWgcn (c : Dev nD) : Fin 128 → Fin 128 → EReal := fun j k => (m ((c : Thread nD τ).loc main_arg5) : S128x128.Idx → EReal) (ix2 j k)
abbrev aWg (c : Dev nD) : Fin 128 → Fin 128 → EReal := fun j k => (m ((c : Thread nD τ).loc main_arg6) : S128x128.Idx → EReal) (ix2 j k)
abbrev abg (c : Dev nD) : Fin 128 → EReal := fun j => (m ((c : Thread nD τ).loc main_arg7) : S128.Idx → EReal) (ix1 j)

/-- The first result, as an array. -/
abbrev G8 (c : Dev nD) : S10000x128.Idx → EReal := fun y =>
  Cert.Encoder.hstruct (aA m c) (aX m c) (aWin m c) (abin m c) (aWgcn m c) (y 0) (y 1)
/-- The second result, as an array. -/
abbrev G9 (c : Dev nD) : S64x128.Idx → EReal := fun y =>
  Cert.Encoder.hgraph (aA m c) (aNB m c) (aX m c) (aWin m c) (abin m c) (aWgcn m c) (aWg m c) (abg m c) (y 0) (y 1)

/-! ## The scratch contents and the tiles, at an index -/

/-- The hidden-layer scratch holds the hidden layer. -/
theorem hid_at (c : Dev nD) (r : Fin 10000) (j : Fin 128) :
    hidV m c (ix2 r j) = Cert.Encoder.hidden (aX m c) (aWin m c) (abin m c) r j := by
  unfold hidV
  rw [pay1_at]
  unfold Cert.Encoder.hidden
  have e1 : (fun k => (iblk m c 2 tFirst : Vec Ideal S10000x128 .f32) (ix2 r k)) = aX m c r :=
    funext fun k => iblk2_apply m c tFirst (ix2 r k) (ix2 r k) rfl rfl
  have e2 : (fun j k => (iblk m c 3 tFirst : Vec Ideal S128x128 .f32) (ix2 j k)) = aWin m c :=
    funext fun j => funext fun k => iblk3_apply m c tFirst (ix2 j k) (ix2 j k) rfl rfl
  have e3 : (fun j => (iblk m c 4 tFirst : Vec Ideal S128 .f32) (ix1 j)) = abin m c :=
    funext fun j => iblk4_apply m c tFirst (ix1 j) (ix1 j) rfl
  rw [e1, e2, e3]

/-- Row `p` of tile `t` is the structural embedding of adjacency row 400·t + p. -/
theorem tile_at (c : Dev nD) (t : Fin cfg0.N) (p : Fin 400) (q : Fin 128) (r : Fin 10000) (hr : r.val = 400 * t.val + p.val) :
    tileV m c t (ix2 p q) = Cert.Encoder.hstruct (aA m c) (aX m c) (aWin m c) (abin m c) (aWgcn m c) r q := by
  unfold tileV
  rw [pay2_at]
  unfold Cert.Encoder.hstruct
  have e1 : (fun k => (iblk m c 0 t : Vec Ideal S400x10000 .f32) (ix2 p k)) = aA m c r :=
    funext fun k => iblk0_apply m c t (ix2 p k) (ix2 r k) hr rfl
  have e2 : (fun k j => hidV m c (ix2 k j)) = Cert.Encoder.hidden (aX m c) (aWin m c) (abin m c) :=
    funext fun k => funext fun j => hid_at m c k j
  have e3 : (fun j k => (iblk m c 5 t : Vec Ideal S128x128 .f32) (ix2 j k)) = aWgcn m c :=
    funext fun j => funext fun k => iblk5_apply m c t (ix2 j k) (ix2 j k) rfl rfl
  rw [e1, e2, e3]

/-- The tiles stacked are the structural embedding of every row. -/
theorem mirror_eq (c : Dev nD) : mirrorV m c = G8 m c := by
  funext y
  show mirrorAt m c (y 0) (y 1) = _
  unfold mirrorAt
  exact tile_at m c _ _ (y 1) (y 0) (by show (y 0).val = 400 * ((y 0).val / 400) + (y 0).val % 400; omega)

/-! ## A load through a rectangle, at an index -/

theorem ld_ix2 {n0 n1 s0 s1 : ℕ} (X : (⟨2, ![n0, n1]⟩ : Shape).Idx → Elt Ideal .f32) (o0 o1 : ℕ)
    (inb : ∀ d : Fin 2, (![o0, o1] : Fin 2 → ℕ) d + (![s0, s1] : Fin 2 → ℕ) d ≤ (⟨2, ![n0, n1]⟩ : Shape).size d)
    (a : Fin s0) (b : Fin s1) (h0 : o0 + a.val < n0) (h1 : o1 + b.val < n1) :
    View.ld (Val := Elt Ideal) X (Rect.unit (s := ⟨2, ![n0, n1]⟩) ![o0, o1] ![s0, s1] inb) (ix2 a b) = X (ix2 ⟨o0 + a.val, h0⟩ ⟨o1 + b.val, h1⟩) := by
  show X _ = X _
  congr 1
  funext d
  apply Fin.ext
  match d with
  | ⟨0, _⟩ => show o0 + 1 * a.val = o0 + a.val; omega
  | ⟨1, _⟩ => show o1 + 1 * b.val = o1 + b.val; omega

/-! ## The pooling sum, split at 6400 -/

theorem sum_split (g : Fin 10000 → EReal) :
    ∑ k : Fin 10000, g k = ∑ k : Fin 6400, g ⟨k.val, by omega⟩ + ∑ k : Fin 3600, g ⟨6400 + k.val, by omega⟩ :=
  Fin.sum_univ_add (a := 6400) (b := 3600) (fun i : Fin (6400 + 3600) => g i)

/-- The pooled head is the pooling sum over the first 6400 rows. -/
theorem pool_at (c : Dev nD) (b : Fin 64) (j : Fin 128) :
    poolV m c (ix2 b j) = ∑ k : Fin 6400, aNB m c b ⟨k.val, by omega⟩ * G8 m c (ix2 ⟨k.val, by omega⟩ j) := by
  unfold poolV
  rw [pay4_at]
  refine Finset.sum_congr rfl fun k _ => ?_
  rw [ld_ix2 _ 0 0 _ b k (by omega) (by omega), ld_ix2 _ 0 0 _ k j (by omega) (by omega), mirror_eq]
  congr 1
  · exact iblk1_apply m c tPool _ _ (by first | (show b.val = 0 + b.val; omega) | (show 0 + b.val = b.val; omega)) (by first | (show k.val = 0 + k.val; omega) | (show 0 + k.val = k.val; omega))
  · show G8 m c _ = G8 m c _
    congr 1
    funext d
    apply Fin.ext
    match d with
    | ⟨0, _⟩ => show 0 + k.val = k.val; omega
    | ⟨1, _⟩ => show 0 + j.val = j.val; omega

/-- What the last point stores is the graph embedding. -/
theorem final_at (c : Dev nD) (b : Fin 64) (q : Fin 128) : finalV m c (ix2 b q) = G9 m c (ix2 b q) := by
  unfold finalV
  rw [pay5_at]
  show Cert.Encoder.graphRow _ _ _ q = Cert.Encoder.graphRow (Cert.Encoder.pooled (aA m c) (aNB m c) (aX m c) (aWin m c) (abin m c) (aWgcn m c) b) (aWg m c) (abg m c) q
  congr 1
  · funext j
    unfold Cert.Encoder.pooled
    rw [sum_split, pool_at]
    congr 1
    refine Finset.sum_congr rfl fun k _ => ?_
    rw [ld_ix2 _ 0 6400 _ b k (by omega) (by omega), ld_ix2 _ 6400 0 _ k j (by omega) (by omega), mirror_eq]
    congr 1
    · exact iblk1_apply m c tLast _ _ (by first | (show b.val = 0 + b.val; omega) | (show 0 + b.val = b.val; omega)) rfl
    · show Cert.Encoder.hstruct _ _ _ _ _ _ _ = Cert.Encoder.hstruct _ _ _ _ _ _ _
      congr 1
      apply Fin.ext
      show 0 + j.val = j.val
      omega
  · funext j k
    exact iblk6_apply m c tLast (ix2 j k) (ix2 j k) rfl rfl
  · funext j
    exact iblk7_apply m c tLast (ix1 j) (ix1 j) rfl

theorem final_eq (c : Dev nD) : finalV m c = G9 m c := by
  funext y
  obtain ⟨b, q, rfl⟩ : ∃ (b : Fin 64) (q : Fin 128), y = ix2 b q := ⟨y 0, y 1, eq_ix2 y⟩
  exact final_at m c b q

/-! ## From the written-back blocks to the two arrays -/

theorem geo8 : ∀ t : Fin cfg0.N, win0_8.index t 0 = t.val ∧ win0_8.index t 1 = 0 ∧ win0_8.size 0 = 400 ∧ win0_8.size 1 = 128
    ∧ win0_8.xsize (grid0.coords t) 0 = 400 ∧ win0_8.xsize (grid0.coords t) 1 = 128 :=
  (by decide +kernel : ∀ t : Fin grid0.N, win0_8.index t 0 = t.val ∧ win0_8.index t 1 = 0 ∧ win0_8.size 0 = 400 ∧ win0_8.size 1 = 128
    ∧ win0_8.xsize (grid0.coords t) 0 = 400 ∧ win0_8.xsize (grid0.coords t) 1 = 128)

/-- What point `t` writes back to the first output is block `t` of the structural embedding. -/
theorem flushed8 (c : Dev nD) (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after8]
  funext y
  obtain ⟨p, q, rfl⟩ : ∃ (p : Fin 400) (q : Fin 128), y = ix2 p q := ⟨y 0, y 1, eq_ix2 (n0 := 400) (n1 := 128) y⟩
  rw [View.read_apply]
  have hg := geo8 t
  have hN : cfg0.N = 25 := N_0
  show tileV m c t (ix2 p q) = G8 m c _
  rw [tile_at m c t p q ⟨400 * t.val + p.val, by have := t.isLt; omega⟩ rfl]
  show Cert.Encoder.hstruct _ _ _ _ _ _ _ = Cert.Encoder.hstruct _ _ _ _ _ _ _
  congr 1
  · apply Fin.ext; show 400 * t.val + p.val = win0_8.index t 0 * 400 + 1 * p.val; rw [hg.1]; omega
  · apply Fin.ext; show q.val = win0_8.index t 1 * 128 + 1 * q.val; rw [hg.2.1]; omega

/-- The 25 blocks tile the first output, so it ends holding the structural embedding. -/
theorem final8 (c : Dev nD) : (dats m 0 c).arrAt 8 cfg0.N = G8 m c :=
  (dats m 0 c).arrAt_eq_of_cover 8 (G8 m c) (flushed8 m c) fun i => by
    have h0 : (i 0 : Nat) < 10000 := (i 0).isLt
    have h1 : (i 1 : Nat) < 128 := (i 1).isLt
    have hN : cfg0.N = 25 := N_0
    obtain ⟨tt, htt⟩ : ∃ tt : Fin cfg0.N, tt.val = (i 0 : Nat) / 400 := ⟨⟨(i 0 : Nat) / 400, by omega⟩, rfl⟩
    refine ⟨tt, flush0_8 tt, ?_⟩
    have hg := geo8 tt
    show i ∈ ((View.whole main_v0_0).slice (win0_8.rect tt)).set
    rw [View.set_slice_whole, Rect.mem_set_unit]
    intro a
    match a with
    | ⟨0, _⟩ =>
      show win0_8.index tt 0 * win0_8.size 0 ≤ (i 0 : Nat) ∧ (i 0 : Nat) < win0_8.index tt 0 * win0_8.size 0 + win0_8.xsize (grid0.coords tt) 0
      rw [hg.1, hg.2.2.1, hg.2.2.2.2.1]; omega
    | ⟨1, _⟩ =>
      show win0_8.index tt 1 * win0_8.size 1 ≤ (i 1 : Nat) ∧ (i 1 : Nat) < win0_8.index tt 1 * win0_8.size 1 + win0_8.xsize (grid0.coords tt) 1
      rw [hg.2.1, hg.2.2.2.1, hg.2.2.2.2.2]; omega

/-- The one write-back of the second output, at the last point, writes the graph embedding. -/
theorem flushed9 (c : Dev nD) (t : Fin cfg0.N) (hf : (cfg0.win 9).flush t = true) :
    (dats m 0 c).flushed 9 t = ((cfg0.win 9).blk t).view.read (Elt Ideal) (G9 m c) := by
  have hN : cfg0.N = 25 := N_0
  have h1 : t.val = 24 := by have := (flush0_9 t).mp hf; have := t.isLt; omega
  obtain rfl : t = tLast := Fin.ext h1
  show (cfg0.win 9).cut (grid0.coords tLast) ((dats m 0 c).after 9 tLast) = _
  rw [after9, final_eq]
  have hz' : (fun a => win0_9.index tLast a * main_v0_1.ty.shape.size a) = fun _ => 0 := funext fun a => by fin_cases a <;> decide +kernel
  exact (Memref.read_access_unit_zero (Elt Ideal) main_v0_1 hz' (fun a => by rw [congrFun hz' a]; simp) (G9 m c)).symm

/-- That block is the whole array. -/
theorem final9 (c : Dev nD) : (dats m 0 c).arrAt 9 cfg0.N = G9 m c :=
  (dats m 0 c).arrAt_eq_of_cover 9 (G9 m c) (flushed9 m c) fun i =>
    ⟨tLast, (flush0_9 tLast).mpr (by decide), by
      show i ∈ ((View.whole main_v0_1).slice (win0_9.rect tLast)).set
      rw [View.set_slice_whole, Rect.mem_set_unit]
      intro a
      have h0 : (i 0 : Nat) < 64 := (i 0).isLt
      have h1 : (i 1 : Nat) < 128 := (i 1).isLt
      match a with
      | ⟨0, _⟩ => show win0_9.index tLast 0 * win0_9.size 0 ≤ (i 0 : Nat) ∧ (i 0 : Nat) < win0_9.index tLast 0 * win0_9.size 0 + win0_9.xsize (grid0.coords tLast) 0
                  rw [show win0_9.index tLast 0 * win0_9.size 0 = 0 from by decide +kernel, show win0_9.xsize (grid0.coords tLast) 0 = 64 from by decide +kernel]; omega
      | ⟨1, _⟩ => show win0_9.index tLast 1 * win0_9.size 1 ≤ (i 1 : Nat) ∧ (i 1 : Nat) < win0_9.index tLast 1 * win0_9.size 1 + win0_9.xsize (grid0.coords tLast) 1
                  rw [show win0_9.index tLast 1 * win0_9.size 1 = 0 from by decide +kernel, show win0_9.xsize (grid0.coords tLast) 1 = 128 from by decide +kernel]; omega⟩

/-- The run, read: both results at the encoder's functions of the arguments, the arguments unchanged. -/
theorem run : θ_run defs (onTc (τ := τ) (main (F := Ideal))) ⟨m, fun _ => 0, ρ⟩ fun r => ∀ c : Dev nD,
      r.2.mem ((c.tc : Thread nD τ).loc main_v0_0) = G8 m c
      ∧ r.2.mem ((c.tc : Thread nD τ).loc main_v0_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.EncValue

end
-- ==== Proof.RefSpec.lean ====
/-
  The reference program computes the graph encoder of the specification.

  Read one element at a time, the reference's stages are:
    the hidden layer        h[r, c] = max (∑ k, X[r, k] · W_in[c, k] + b_in[c]) 0        (W_in enters transposed),
    the aggregated rows     ∑ k, A[r, k] · h[k, j]  and their product with W_gcn, read at (j, c),
    the structural rows     max (…) 0 divided by max (sqrt (∑ j of squares)) ε,
    the pooled rows         ∑ k, NB[b, k] · s[k, j],
    the graph rows          max (∑ j, p[b, j] · W_g[c, j] + b_g[c]) 0 normalised the same way (W_g enters transposed).
  Each lemma below identifies one stage, at an index given by its coordinates, with the specification's
  function of the argument arrays; the sum's initial value is the word of 0.0, which is the extended real 0.
-/
import proofs.«101997_g44092134261233_cont_8to1_c_785_18_alg».proof.Proof.Gen.ReferenceIdeal.Read
import proofs.«101997_g44092134261233_cont_8to1_c_785_18_alg».proof.Proof.Spec

noncomputable section

namespace Cert.ReferenceIdeal.RefValue

open Cert.ReferenceIdeal Cert.ReferenceIdeal.Read Idealize.ShloMosaic Idealize.ShloMosaic.ValueIdx

variable (x0 : (⟨S10000x10000, .f32⟩ : BufTy).Contents (Elt Ideal)) (x1 : (⟨S64x10000, .f32⟩ : BufTy).Contents (Elt Ideal)) (x2 : (⟨S10000x128, .f32⟩ : BufTy).Contents (Elt Ideal))
  (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal))

/-! ## Index equations: the generated index maps at an index given by its coordinates -/

theorem lidx_v1 (r : Fin 10000) (c k : Fin 128) : lidx_main_v1 (ix2 r c) k = ix2 r k := funext fun a => Fin.ext (by match a with | ⟨0, _⟩ => rfl | ⟨1, _⟩ => rfl)
/-- The right operand of the first product is the transpose of `W_in`: its entry `(k, c)` is `W_in[c, k]`. -/
theorem ridx_v1 (r : Fin 10000) (c k : Fin 128) : idx_main_v0 (ridx_main_v1 (ix2 r c) k) = ix2 c k := funext fun a => Fin.ext (by match a with | ⟨0, _⟩ => rfl | ⟨1, _⟩ => rfl)
theorem idx_v3 (r : Fin 10000) (c : Fin 128) : idx_main_v2 (idx_main_v3 (ix2 r c)) = ix1 c := funext fun a => Fin.ext (by match a with | ⟨0, _⟩ => rfl)
theorem lidx_v6 (r : Fin 10000) (j : Fin 128) (k : Fin 10000) : lidx_main_v6 (ix2 r j) k = ix2 r k := funext fun a => Fin.ext (by match a with | ⟨0, _⟩ => rfl | ⟨1, _⟩ => rfl)
theorem ridx_v6 (r : Fin 10000) (j : Fin 128) (k : Fin 10000) : ridx_main_v6 (ix2 r j) k = ix2 k j := funext fun a => Fin.ext (by match a with | ⟨0, _⟩ => rfl | ⟨1, _⟩ => rfl)
theorem lidx_v7 (r : Fin 10000) (c j : Fin 128) : lidx_main_v7 (ix2 r c) j = ix2 r j := funext fun a => Fin.ext (by match a with | ⟨0, _⟩ => rfl | ⟨1, _⟩ => rfl)
theorem ridx_v7 (r : Fin 10000) (c j : Fin 128) : ridx_main_v7 (ix2 r c) j = ix2 j c := funext fun a => Fin.ext (by match a with | ⟨0, _⟩ => rfl | ⟨1, _⟩ => rfl)
theorem idx_v10 (r : Fin 10000) (z : Fin 1) (j : Fin 128) : idx_main_v10 (idx_main_v11 (ix2 r z)) j = ix2 r j := funext fun a => Fin.ext (by match a with | ⟨0, _⟩ => rfl | ⟨1, _⟩ => rfl)
theorem idx_v15 (r : Fin 10000) (c : Fin 128) : idx_main_v15 (ix2 r c) = ix2 r (0 : Fin 1) := funext fun a => Fin.ext (by match a with | ⟨0, _⟩ => rfl | ⟨1, _⟩ => rfl)

/-! ## The structural embedding -/

/-- The hidden layer: `max (∑ k, X[r, k] · W_in[c, k] + b_in[c]) 0`. -/
theorem v5_at (r : Fin 10000) (c : Fin 128) :
    val_main_v5 (F := Ideal) x2 x3 x4 (ix2 r c) = Cert.Encoder.hidden (fun r k => x2 (ix2 r k)) (fun c k => x3 (ix2 c k)) (fun c => x4 (ix1 c)) r c := by
  rw [val_main_v5_apply, val_main_v4_apply, val_main_v1_apply, val_main_v3_apply, val_main_v2_apply,
    val_main_call0_v0_apply, val_main_call0_cst_apply, idx_v3]
  have hs : ∑ k : Fin 128, x2 (lidx_main_v1 (ix2 r c) k) * val_main_v0 (F := Ideal) x3 (ridx_main_v1 (ix2 r c) k)
      = ∑ k : Fin 128, x2 (ix2 r k) * x3 (ix2 c k) :=
    Finset.sum_congr rfl (fun k _ => by rw [val_main_v0_apply, lidx_v1, ridx_v1])
  rw [hs]
  simp only [Ideal.maximumf_def, Ideal.addf_def, Ideal.ofBits_def]
  rfl

/-- A row of the adjacency against the hidden layer. -/
theorem v6_at (r : Fin 10000) (j : Fin 128) :
    val_main_v6 (F := Ideal) x0 x2 x3 x4 (ix2 r j) = ∑ k : Fin 10000, x0 (ix2 r k) * Cert.Encoder.hidden (fun r k => x2 (ix2 r k)) (fun c k => x3 (ix2 c k)) (fun c => x4 (ix1 c)) k j := by
  rw [val_main_v6_apply]
  exact Finset.sum_congr rfl (fun k _ => by rw [lidx_v6, ridx_v6, v5_at])

/-- … and that row against `W_gcn`, read at `(j, c)`. -/
theorem v7_at (r : Fin 10000) (c : Fin 128) :
    val_main_v7 (F := Ideal) x0 x2 x3 x4 x5 (ix2 r c)
      = ∑ j : Fin 128, (∑ k : Fin 10000, x0 (ix2 r k) * Cert.Encoder.hidden (fun r k => x2 (ix2 r k)) (fun c k => x3 (ix2 c k)) (fun c => x4 (ix1 c)) k j) * x5 (ix2 j c) := by
  rw [val_main_v7_apply]
  exact Finset.sum_congr rfl (fun j _ => by rw [lidx_v7, ridx_v7, v6_at])

/-- The structural rows before normalisation. -/
theorem v8_at (r : Fin 10000) (c : Fin 128) :
    val_main_v8 (F := Ideal) x0 x2 x3 x4 x5 (ix2 r c)
      = Cert.Encoder.structPre (fun k => x0 (ix2 r k)) (Cert.Encoder.hidden (fun r k => x2 (ix2 r k)) (fun c k => x3 (ix2 c k)) (fun c => x4 (ix1 c))) (fun j c => x5 (ix2 j c)) c := by
  rw [val_main_v8_apply, v7_at, val_main_call1_v0_apply, val_main_call1_cst_apply]
  simp only [Ideal.maximumf_def, Ideal.ofBits_def]
  rfl

/-- The norm column: the larger of the row's Euclidean norm and the floor. The sum starts from the word of `0.0`,
    the extended real `0`. -/
theorem v14_at (r : Fin 10000) (z : Fin 1) :
    val_main_v14 (F := Ideal) x0 x2 x3 x4 x5 (ix2 r z)
      = max (Ideal.sqrt (∑ j : Fin 128,
          Cert.Encoder.structPre (fun k => x0 (ix2 r k)) (Cert.Encoder.hidden (fun r k => x2 (ix2 r k)) (fun c k => x3 (ix2 c k)) (fun c => x4 (ix1 c))) (fun j c => x5 (ix2 j c)) j
            * Cert.Encoder.structPre (fun k => x0 (ix2 r k)) (Cert.Encoder.hidden (fun r k => x2 (ix2 r k)) (fun c k => x3 (ix2 c k)) (fun c => x4 (ix1 c))) (fun j c => x5 (ix2 j c)) j)) Cert.Encoder.epsW := by
  rw [val_main_v14_apply, val_main_v12_apply, val_main_v11_apply, val_main_v10_apply, val_main_cst_apply,
    val_main_v13_apply, val_main_cst_0_apply]
  have hs : ∑ j : Fin 128, val_main_v9 (F := Ideal) x0 x2 x3 x4 x5 (idx_main_v10 (idx_main_v11 (ix2 r z)) j)
      = ∑ j : Fin 128, Cert.Encoder.structPre (fun k => x0 (ix2 r k)) (Cert.Encoder.hidden (fun r k => x2 (ix2 r k)) (fun c k => x3 (ix2 c k)) (fun c => x4 (ix1 c))) (fun j c => x5 (ix2 j c)) j
            * Cert.Encoder.structPre (fun k => x0 (ix2 r k)) (Cert.Encoder.hidden (fun r k => x2 (ix2 r k)) (fun c k => x3 (ix2 c k)) (fun c => x4 (ix1 c))) (fun j c => x5 (ix2 j c)) j :=
    Finset.sum_congr rfl (fun j _ => by rw [idx_v10, val_main_v9_apply, v8_at]; rfl)
  rw [hs]
  simp only [Ideal.maximumf_def, Ideal.hostUnary_sqrt_def, Ideal.ofBits_def, Ideal.ofBits_zero_f32, zero_add]

/-- The structural embedding at an index given by its coordinates. -/
theorem v16_at (r : Fin 10000) (c : Fin 128) :
    val_main_v16 (F := Ideal) x0 x2 x3 x4 x5 (ix2 r c)
      = Cert.Encoder.hstruct (fun r k => x0 (ix2 r k)) (fun r k => x2 (ix2 r k)) (fun c k => x3 (ix2 c k)) (fun c => x4 (ix1 c)) (fun j c => x5 (ix2 j c)) r c := by
  rw [val_main_v16_apply, val_main_v15_apply, idx_v15, v14_at, v8_at]
  simp only [Ideal.hostDivf_def]
  rfl

/-- The reference's first result is the specification's structural embedding. -/
theorem v16_eq_hstruct :
    val_main_v16 (F := Ideal) x0 x2 x3 x4 x5
      = fun i => Cert.Encoder.hstruct (fun r k => x0 (ix2 r k)) (fun r k => x2 (ix2 r k)) (fun c k => x3 (ix2 c k)) (fun c => x4 (ix1 c)) (fun j c => x5 (ix2 j c)) (i 0) (i 1) := by
  funext i
  obtain ⟨r, c, rfl⟩ : ∃ (r : Fin 10000) (c : Fin 128), i = ix2 r c := ⟨i 0, i 1, eq_ix2 i⟩
  exact v16_at x0 x2 x3 x4 x5 r c

/-! ## The graph embedding -/

theorem lidx_v17 (b : Fin 64) (j : Fin 128) (k : Fin 10000) : lidx_main_v17 (ix2 b j) k = ix2 b k := funext fun a => Fin.ext (by match a with | ⟨0, _⟩ => rfl | ⟨1, _⟩ => rfl)
theorem ridx_v17 (b : Fin 64) (j : Fin 128) (k : Fin 10000) : ridx_main_v17 (ix2 b j) k = ix2 k j := funext fun a => Fin.ext (by match a with | ⟨0, _⟩ => rfl | ⟨1, _⟩ => rfl)
theorem lidx_v19 (b : Fin 64) (c j : Fin 128) : lidx_main_v19 (ix2 b c) j = ix2 b j := funext fun a => Fin.ext (by match a with | ⟨0, _⟩ => rfl | ⟨1, _⟩ => rfl)
/-- The right operand of the last product is the transpose of `W_g`: its entry `(j, c)` is `W_g[c, j]`. -/
theorem ridx_v19 (b : Fin 64) (c j : Fin 128) : idx_main_v18 (ridx_main_v19 (ix2 b c) j) = ix2 c j := funext fun a => Fin.ext (by match a with | ⟨0, _⟩ => rfl | ⟨1, _⟩ => rfl)
theorem idx_v21 (b : Fin 64) (c : Fin 128) : idx_main_v20 (idx_main_v21 (ix2 b c)) = ix1 c := funext fun a => Fin.ext (by match a with | ⟨0, _⟩ => rfl)
theorem idx_v25 (b : Fin 64) (z : Fin 1) (j : Fin 128) : idx_main_v25 (idx_main_v26 (ix2 b z)) j = ix2 b j := funext fun a => Fin.ext (by match a with | ⟨0, _⟩ => rfl | ⟨1, _⟩ => rfl)
theorem idx_v30 (b : Fin 64) (c : Fin 128) : idx_main_v30 (ix2 b c) = ix2 b (0 : Fin 1) := funext fun a => Fin.ext (by match a with | ⟨0, _⟩ => rfl | ⟨1, _⟩ => rfl)

/-- The pooled rows: the pooling weights against the whole structural embedding. -/
theorem v17_at (b : Fin 64) (j : Fin 128) :
    val_main_v17 (F := Ideal) x0 x1 x2 x3 x4 x5 (ix2 b j) = Cert.Encoder.pooled (fun r k => x0 (ix2 r k)) (fun b k => x1 (ix2 b k)) (fun r k => x2 (ix2 r k)) (fun c k => x3 (ix2 c k)) (fun c => x4 (ix1 c)) (fun j c => x5 (ix2 j c)) b j := by
  rw [val_main_v17_apply]
  unfold Cert.Encoder.pooled
  exact Finset.sum_congr rfl (fun k _ => by rw [lidx_v17, ridx_v17, v16_at])

/-- A pooled row against `W_g` transposed. -/
theorem v19_at (b : Fin 64) (c : Fin 128) :
    val_main_v19 (F := Ideal) x0 x1 x2 x3 x4 x5 x6 (ix2 b c)
      = ∑ j : Fin 128, Cert.Encoder.pooled (fun r k => x0 (ix2 r k)) (fun b k => x1 (ix2 b k)) (fun r k => x2 (ix2 r k)) (fun c k => x3 (ix2 c k)) (fun c => x4 (ix1 c)) (fun j c => x5 (ix2 j c)) b j * x6 (ix2 c j) := by
  rw [val_main_v19_apply]
  exact Finset.sum_congr rfl (fun j _ => by rw [lidx_v19, v17_at, val_main_v18_apply, ridx_v19])

/-- The graph rows before normalisation. -/
theorem v23_at (b : Fin 64) (c : Fin 128) :
    val_main_v23 (F := Ideal) x0 x1 x2 x3 x4 x5 x6 x7 (ix2 b c) = Cert.Encoder.graphPre (Cert.Encoder.pooled (fun r k => x0 (ix2 r k)) (fun b k => x1 (ix2 b k)) (fun r k => x2 (ix2 r k)) (fun c k => x3 (ix2 c k)) (fun c => x4 (ix1 c)) (fun j c => x5 (ix2 j c)) b) (fun c j => x6 (ix2 c j)) (fun c => x7 (ix1 c)) c := by
  rw [val_main_v23_apply, val_main_v22_apply, v19_at, val_main_v21_apply, val_main_v20_apply, idx_v21,
    val_main_call2_v0_apply, val_main_call2_cst_apply]
  simp only [Ideal.maximumf_def, Ideal.addf_def, Ideal.ofBits_def]
  rfl

/-- The norm column of the graph rows; the sum starts from the word of `0.0`, the extended real `0`. -/
theorem v29_at (b : Fin 64) (z : Fin 1) :
    val_main_v29 (F := Ideal) x0 x1 x2 x3 x4 x5 x6 x7 (ix2 b z)
      = max (Ideal.sqrt (∑ j : Fin 128, Cert.Encoder.graphPre (Cert.Encoder.pooled (fun r k => x0 (ix2 r k)) (fun b k => x1 (ix2 b k)) (fun r k => x2 (ix2 r k)) (fun c k => x3 (ix2 c k)) (fun c => x4 (ix1 c)) (fun j c => x5 (ix2 j c)) b) (fun c j => x6 (ix2 c j)) (fun c => x7 (ix1 c)) j * Cert.Encoder.graphPre (Cert.Encoder.pooled (fun r k => x0 (ix2 r k)) (fun b k => x1 (ix2 b k)) (fun r k => x2 (ix2 r k)) (fun c k => x3 (ix2 c k)) (fun c => x4 (ix1 c)) (fun j c => x5 (ix2 j c)) b) (fun c j => x6 (ix2 c j)) (fun c => x7 (ix1 c)) j)) Cert.Encoder.epsW := by
  rw [val_main_v29_apply, val_main_v27_apply, val_main_v26_apply, val_main_v25_apply, val_main_cst_1_apply,
    val_main_v28_apply, val_main_cst_2_apply]
  have hs : ∑ j : Fin 128, val_main_v24 (F := Ideal) x0 x1 x2 x3 x4 x5 x6 x7 (idx_main_v25 (idx_main_v26 (ix2 b z)) j)
      = ∑ j : Fin 128, Cert.Encoder.graphPre (Cert.Encoder.pooled (fun r k => x0 (ix2 r k)) (fun b k => x1 (ix2 b k)) (fun r k => x2 (ix2 r k)) (fun c k => x3 (ix2 c k)) (fun c => x4 (ix1 c)) (fun j c => x5 (ix2 j c)) b) (fun c j => x6 (ix2 c j)) (fun c => x7 (ix1 c)) j * Cert.Encoder.graphPre (Cert.Encoder.pooled (fun r k => x0 (ix2 r k)) (fun b k => x1 (ix2 b k)) (fun r k => x2 (ix2 r k)) (fun c k => x3 (ix2 c k)) (fun c => x4 (ix1 c)) (fun j c => x5 (ix2 j c)) b) (fun c j => x6 (ix2 c j)) (fun c => x7 (ix1 c)) j :=
    Finset.sum_congr rfl (fun j _ => by rw [idx_v25, val_main_v24_apply, v23_at]; rfl)
  rw [hs]
  simp only [Ideal.maximumf_def, Ideal.hostUnary_sqrt_def, Ideal.ofBits_def, Ideal.ofBits_zero_f32, zero_add]

/-- The graph embedding at an index given by its coordinates. -/
theorem v31_at (b : Fin 64) (c : Fin 128) :
    val_main_v31 (F := Ideal) x0 x1 x2 x3 x4 x5 x6 x7 (ix2 b c)
      = Cert.Encoder.hgraph (fun r k => x0 (ix2 r k)) (fun b k => x1 (ix2 b k)) (fun r k => x2 (ix2 r k)) (fun c k => x3 (ix2 c k)) (fun c => x4 (ix1 c)) (fun j c => x5 (ix2 j c)) (fun c j => x6 (ix2 c j)) (fun c => x7 (ix1 c)) b c := by
  rw [val_main_v31_apply, val_main_v30_apply, idx_v30, v29_at, v23_at]
  simp only [Ideal.hostDivf_def]
  rfl

/-- The reference's second result is the specification's graph embedding. -/
theorem v31_eq_hgraph :
    val_main_v31 (F := Ideal) x0 x1 x2 x3 x4 x5 x6 x7
      = fun i => Cert.Encoder.hgraph (fun r k => x0 (ix2 r k)) (fun b k => x1 (ix2 b k)) (fun r k => x2 (ix2 r k)) (fun c k => x3 (ix2 c k)) (fun c => x4 (ix1 c)) (fun j c => x5 (ix2 j c)) (fun c j => x6 (ix2 c j)) (fun c => x7 (ix1 c)) (i 0) (i 1) := by
  funext i
  obtain ⟨b, c, rfl⟩ : ∃ (b : Fin 64) (c : Fin 128), i = ix2 b c := ⟨i 0, i 1, eq_ix2 i⟩
  exact v31_at x0 x1 x2 x3 x4 x5 x6 x7 b c

end Cert.ReferenceIdeal.RefValue

end
-- ==== Proof.lean ====
/-
  The claim for the fused graph-encoder kernel against its reference.

  Both programs compute, on the extended reals, the hidden layer h = max (X · W_inᵀ + b_in) 0, the structural
  embedding s = normalize (max ((A · h) · W_gcn) 0) row by row, and the graph embedding
  g = normalize (max ((NB · s) · W_gᵀ + b_g) 0). The kernel does it in one pass over 25 tiles of 400 adjacency rows,
  keeping h and a mirror of s in scratch buffers and splitting the pooling sum NB · s at row 6400; the reference in
  whole-array operations. Each side's results are shown to be the specification's functions of the arguments
  (Proof/Spec.lean): the kernel's through its frame run with the outputs named (Proof/BodyFrame.lean,
  Proof/KernelValue.lean), the reference's through its run read one operation at a time (Proof/RefSpec.lean). The
  two sums that make the pooled row are joined by splitting a sum over Fin 10000 at 6400, which holds in any
  commutative monoid, so the precondition is never opened. The idealisation rewrote nothing, so its ledger is empty.
-/
import proofs.«101997_g44092134261233_cont_8to1_c_785_18_alg».proof.Defs
import proofs.«101997_g44092134261233_cont_8to1_c_785_18_alg».proof.Proof.Gen.Kernel
import proofs.«101997_g44092134261233_cont_8to1_c_785_18_alg».proof.Proof.Gen.KernelIdeal
import proofs.«101997_g44092134261233_cont_8to1_c_785_18_alg».proof.Proof.Gen.ReferenceIdeal
import proofs.«101997_g44092134261233_cont_8to1_c_785_18_alg».proof.Proof.Gen.ReferenceIdeal.Run
import proofs.«101997_g44092134261233_cont_8to1_c_785_18_alg».proof.Proof.Gen.ReferenceIdeal.Read
import proofs.«101997_g44092134261233_cont_8to1_c_785_18_alg».proof.Proof.Gen.Pre_finite_inputs
import proofs.«101997_g44092134261233_cont_8to1_c_785_18_alg».proof.Proof.Word.BodyFrame
import proofs.«101997_g44092134261233_cont_8to1_c_785_18_alg».proof.Proof.BodyFrame
import proofs.«101997_g44092134261233_cont_8to1_c_785_18_alg».proof.Proof.KernelValue
import proofs.«101997_g44092134261233_cont_8to1_c_785_18_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both runs end with the structural embedding and the graph embedding
    of those arguments in their two results. -/
theorem algebraic : Cert.algebraic_KernelIdeal_ReferenceIdeal := by
  intro m ρ m' ρ' _ hagree
  refine ⟨fun c => Cert.KernelIdeal.EncValue.G8 m c, fun c => Cert.KernelIdeal.EncValue.G9 m c, Cert.KernelIdeal.EncValue.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7⟩ := hagree c
    rw [(h c).1, Cert.ReferenceIdeal.Read.val_main_v16_eq, Cert.ReferenceIdeal.RefValue.v16_eq_hstruct, e0, e2, e3, e4, e5]
  · obtain ⟨e0, e1, e2, e3, e4, e5, e6, e7⟩ := hagree c
    rw [(h c).2.1, Cert.ReferenceIdeal.Read.val_main_v31_eq, Cert.ReferenceIdeal.RefValue.v31_eq_hgraph, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
